-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) (main_arg3 : IVec S2x800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x1 : Shape := ⟨2, ![100000, 1]⟩
abbrev S900000x128 : Shape := ⟨2, ![900000, 128]⟩
abbrev S1x128 : Shape := ⟨2, ![1, 128]⟩
abbrev S5000x128 : Shape := ⟨2, ![5000, 128]⟩
abbrev S5000x1 : Shape := ⟨2, ![5000, 1]⟩
abbrev S5000 : Shape := ⟨1, ![5000]⟩

abbrev nBuf : Space → Nat
  | .hbm => 63
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x800000, .i32⟩
  | .hbm, ⟨4, _⟩ => ⟨S100000, .i32⟩
  | .hbm, ⟨5, _⟩ => ⟨S1x800000, .i32⟩
  | .hbm, ⟨6, _⟩ => ⟨S800000, .i32⟩
  | .hbm, ⟨7, _⟩ => ⟨S900000, .i32⟩
  | .hbm, ⟨8, _⟩ => ⟨S1x800000, .i32⟩
  | .hbm, ⟨9, _⟩ => ⟨S800000, .i32⟩
  | .hbm, ⟨10, _⟩ => ⟨S900000, .i32⟩
  | .hbm, ⟨11, _⟩ => ⟨S_, .f32⟩
  | .hbm, ⟨12, _⟩ => ⟨S900000, .f32⟩
  | .hbm, ⟨13, _⟩ => ⟨S_, .f32⟩
  | .hbm, ⟨14, _⟩ => ⟨S100000, .f32⟩
  | .hbm, ⟨15, _⟩ => ⟨S900000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .f32⟩
  | .hbm, ⟨26, _⟩ => ⟨S100000x128, .f32⟩
  | .hbm, ⟨27, _⟩ => ⟨S_, .i32⟩
  | .hbm, ⟨28, _⟩ => ⟨S900000, .i32⟩
  | .hbm, ⟨29, _⟩ => ⟨S900000, .i1⟩
  | .hbm, ⟨30, _⟩ => ⟨S_, .i32⟩
  | .hbm, ⟨31, _⟩ => ⟨S900000, .i32⟩
  | .hbm, ⟨32, _⟩ => ⟨S900000, .i32⟩
  | .hbm, ⟨33, _⟩ => ⟨S900000, .i32⟩
  | .hbm, ⟨34, _⟩ => ⟨S900000x1, .i32⟩
  | .hbm, ⟨35, _⟩ => ⟨S900000x128, .f32⟩
  | .hbm, ⟨36, _⟩ => ⟨S_, .f32⟩
  | .hbm, ⟨37, _⟩ => ⟨S100000x128, .f32⟩
  | .hbm, ⟨38, _⟩ => ⟨S900000x1, .i32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S900000, .i32⟩
  | .hbm, ⟨48, _⟩ => ⟨S900000, .i1⟩
  | .hbm, ⟨49, _⟩ => ⟨S_, .i32⟩
  | .hbm, ⟨50, _⟩ => ⟨S900000, .i32⟩
  | .hbm, ⟨51, _⟩ => ⟨S900000, .i32⟩
  | .hbm, ⟨52, _⟩ => ⟨S900000, .i32⟩
  | .hbm, ⟨53, _⟩ => ⟨S900000x1, .i32⟩
  | .hbm, ⟨54, _⟩ => ⟨S900000x128, .f32⟩
  | .hbm, ⟨55, _⟩ => ⟨S_, .f32⟩
  | .hbm, ⟨56, _⟩ => ⟨S100000x128, .f32⟩
  | .hbm, ⟨57, _⟩ => ⟨S900000x1, .i32⟩
  | .hbm, ⟨58, _⟩ => ⟨S100000x128, .f32⟩
  | .hbm, ⟨59, _⟩ => ⟨S128x128, .f32⟩
  | .hbm, ⟨60, _⟩ => ⟨S1x128, .f32⟩
  | .hbm, ⟨61, _⟩ => ⟨S100000x1, .f32⟩
  | .hbm, ⟨62, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  scatter_S100000_S900000x1_S900000_n_0_0_1_wf : ScatterDims.WF S100000 S900000x1 S900000 [] [0] [0] 1
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v44) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v48) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S100000x1 : Shape := ⟨2, ![100000, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x800000, .i32⟩
  | .hbm, ⟨4, _⟩ => ⟨S100000, .i32⟩
  | .hbm, ⟨5, _⟩ => ⟨S1x800000, .i32⟩
  | .hbm, ⟨6, _⟩ => ⟨S800000, .i32⟩
  | .hbm, ⟨7, _⟩ => ⟨S900000, .i32⟩
  | .hbm, ⟨8, _⟩ => ⟨S1x800000, .i32⟩
  | .hbm, ⟨9, _⟩ => ⟨S800000, .i32⟩
  | .hbm, ⟨10, _⟩ => ⟨S900000, .i32⟩
  | .hbm, ⟨11, _⟩ => ⟨S_, .f32⟩
  | .hbm, ⟨12, _⟩ => ⟨S900000, .f32⟩
  | .hbm, ⟨13, _⟩ => ⟨S_, .f32⟩
  | .hbm, ⟨14, _⟩ => ⟨S100000, .f32⟩
  | .hbm, ⟨15, _⟩ => ⟨S900000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S900000, .i32⟩
  | .hbm, ⟨26, _⟩ => ⟨S900000, .i1⟩
  | .hbm, ⟨27, _⟩ => ⟨S_, .i32⟩
  | .hbm, ⟨28, _⟩ => ⟨S900000, .i32⟩
  | .hbm, ⟨29, _⟩ => ⟨S900000, .i32⟩
  | .hbm, ⟨30, _⟩ => ⟨S900000, .i32⟩
  | .hbm, ⟨31, _⟩ => ⟨S900000x1, .i32⟩
  | .hbm, ⟨32, _⟩ => ⟨S900000, .f32⟩
  | .hbm, ⟨33, _⟩ => ⟨S_, .i32⟩
  | .hbm, ⟨34, _⟩ => ⟨S900000, .i32⟩
  | .hbm, ⟨35, _⟩ => ⟨S900000, .i1⟩
  | .hbm, ⟨36, _⟩ => ⟨S_, .i32⟩
  | .hbm, ⟨37, _⟩ => ⟨S900000, .i32⟩
  | .hbm, ⟨38, _⟩ => ⟨S900000, .i32⟩
  | .hbm, ⟨39, _⟩ => ⟨S900000, .i32⟩
  | .hbm, ⟨40, _⟩ => ⟨S900000x1, .i32⟩
  | .hbm, ⟨41, _⟩ => ⟨S900000, .f32⟩
  | .hbm, ⟨42, _⟩ => ⟨S900000, .f32⟩
  | .hbm, ⟨43, _⟩ => ⟨S900000x1, .f32⟩
  | .hbm, ⟨44, _⟩ => ⟨S_, .i32⟩
  | .hbm, ⟨45, _⟩ => ⟨S900000, .i32⟩
  | .hbm, ⟨46, _⟩ => ⟨S900000, .i1⟩
  | .hbm, ⟨47, _⟩ => ⟨S_, .i32⟩
  | .hbm, ⟨48, _⟩ => ⟨S900000, .i32⟩
  | .hbm, ⟨49, _⟩ => ⟨S900000, .i32⟩
  | .hbm, ⟨50, _⟩ => ⟨S900000, .i32⟩
  | .hbm, ⟨51, _⟩ => ⟨S900000x1, .i32⟩
  | .hbm, ⟨52, _⟩ => ⟨S900000x128, .f32⟩
  | .hbm, ⟨53, _⟩ => ⟨S900000x128, .f32⟩
  | .hbm, ⟨54, _⟩ => ⟨S900000x128, .f32⟩
  | .hbm, ⟨55, _⟩ => ⟨S_, .f32⟩
  | .hbm, ⟨56, _⟩ => ⟨S100000x128, .f32⟩
  | .hbm, ⟨57, _⟩ => ⟨S900000x1, .i32⟩
  | .hbm, ⟨58, _⟩ => ⟨S100000x128, .f32⟩
  | .hbm, ⟨59, _⟩ => ⟨S900000x1, .f32⟩
  | .hbm, ⟨60, _⟩ => ⟨S_, .i32⟩
  | .hbm, ⟨61, _⟩ => ⟨S900000, .i32⟩
  | .hbm, ⟨62, _⟩ => ⟨S900000, .i1⟩
  | .hbm, ⟨63, _⟩ => ⟨S_, .i32⟩
  | .hbm, ⟨64, _⟩ => ⟨S900000, .i32⟩
  | .hbm, ⟨65, _⟩ => ⟨S900000, .i32⟩
  | .hbm, ⟨66, _⟩ => ⟨S900000, .i32⟩
  | .hbm, ⟨67, _⟩ => ⟨S900000x1, .i32⟩
  | .hbm, ⟨68, _⟩ => ⟨S900000x128, .f32⟩
  | .hbm, ⟨69, _⟩ => ⟨S900000x128, .f32⟩
  | .hbm, ⟨70, _⟩ => ⟨S900000x128, .f32⟩
  | .hbm, ⟨71, _⟩ => ⟨S_, .f32⟩
  | .hbm, ⟨72, _⟩ => ⟨S100000x128, .f32⟩
  | .hbm, ⟨73, _⟩ => ⟨S900000x1, .i32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000, .f32⟩
  | .hbm, ⟨91, _⟩ => ⟨S100000x1, .f32⟩
  | .hbm, ⟨92, _⟩ => ⟨S100000x1, .f32⟩
  | .hbm, ⟨93, _⟩ => ⟨S100000x128, .f32⟩
  | .hbm, ⟨94, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_call1_cst : Ref sig .tc := ⟨.hbm, 80, rfl⟩
abbrev main_call1_v0 : Ref sig .tc := ⟨.hbm, 81, rfl⟩
abbrev main_call1_cst_0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_cst_1 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_v62 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x128_S100000x128_1_0_0_1_n_n_wf : DotDims.WF S100000x128 S128x128 S100000x128 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibIndexedRows.lean ====
/-
  Rows picked out of a matrix, and rows added into a matrix, through a column of index words.

  `x[idx]` for a matrix `x : [N, C]` (or a vector `x : [N]`) and a column of index words `idx : [E, 1]` lowers to a
  `gather` whose result row `e` is the row of `x` named by the word `idx[e, 0]`, read as a signed integer and clamped into
  `[0, N - 1]`. The accumulating `scatter` that `segment_sum` lowers to adds update row `e` into the row of the operand
  named by `idx[e, 0]`, read as a signed integer and NOT clamped: an update whose word is outside `[0, N)` is dropped.
  So an update that lands on row `j` has index word exactly `j`.
-/
import Idealize.ShloMosaic.PureOps.Ideal
import Idealize.ShloMosaic.Lib.ValueIdx

noncomputable section

namespace Cert.Lib

open Idealize.ShloMosaic Idealize.ShloMosaic.ValueIdx

section Gather
variable {α : Type}

/-- The dimension numbers of "row `idx[e, 0]` of an `[N, C]` matrix, for each `e`". -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a word names in an array of `N` rows: the word read signed, clamped into `[0, N - 1]`. -/
def clampRow (N : Nat) (hN : 0 < N) {w : Nat} (b : BitVec w) : Fin N := ⟨min b.toInt.toNat (N - 1), by omega⟩

theorem rows_coord0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 0 + (rowsDims N E C wf).batchCoord (ix2 e c) 0
      + (rowsDims N E C wf).offCoord (ix2 e c) 0 = min (idx (ix2 e 0)).toInt.toNat (N - 1) := by
  have hm : (0 : Fin 2) ∈ (rowsDims N E C wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (rowsDims N E C wf).siIdx (ix2 e c) ⟨List.idxOf (0 : Fin 2) (rowsDims N E C wf).startIndexMap,
      List.idxOf_lt_length_iff.2 hm⟩ = ix2 e 0 := by
    funext b; refine Fin.ext ?_
    match b with
    | ⟨0, _⟩ => rfl
    | ⟨1, _⟩ => rfl
  rw [hsi]
  rfl

theorem rows_coord1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 1 + (rowsDims N E C wf).batchCoord (ix2 e c) 1
      + (rowsDims N E C wf).offCoord (ix2 e c) 1 = c.val := by
  have hm : (1 : Fin 2) ∉ (rowsDims N E C wf).startIndexMap := by simp
  have hk : (1 : Fin 2) ∈ (rowsDims N E C wf).sKept := (GatherDims.mem_sKept _ _).mpr ⟨by simp, List.not_mem_nil⟩
  rw [GatherDims.batchCoord_eq_zero _ _ _ List.not_mem_nil]
  unfold GatherDims.start
  rw [dif_neg hm]
  unfold GatherDims.offCoord
  rw [dif_pos hk]
  simp only [Nat.zero_add, Nat.add_zero]
  rfl

/-- The gather at `(e, c)`: the matrix at row `idx[e, 0]` (signed, clamped) and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c) = x (ix2 (clampRow N hN (idx (ix2 e 0))) c) := by
  unfold Host.gather
  congr 1
  funext a
  refine Fin.ext ?_
  match a with
  | ⟨0, _⟩ => exact rows_coord0 wf idx e c
  | ⟨1, _⟩ => exact rows_coord1 wf idx e c

/-- The dimension numbers of "entry `idx[e, 0]` of an `[N]` vector, for each `e`". -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at `e`: the vector at entry `idx[e, 0]` (signed, clamped). -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (clampRow N hN (idx (ix2 e 0)))) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  have hm : (0 : Fin 1) ∈ (entriesDims N E wf).startIndexMap := List.mem_singleton.mpr rfl
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos hm]
  have hsi : (entriesDims N E wf).siIdx (ix1 e) ⟨List.idxOf (0 : Fin 1) (entriesDims N E wf).startIndexMap,
      List.idxOf_lt_length_iff.2 hm⟩ = ix2 e 0 := by
    funext b; refine Fin.ext ?_
    match b with
    | ⟨0, _⟩ => rfl
    | ⟨1, _⟩ => rfl
  rw [hsi]
  rfl

end Gather

section Scatter

/-- The dimension numbers of "add update row `e` into operand row `idx[e, 0]`". -/
abbrev addRowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update that lands on row `j` has index word `j`: the word is read signed and is not clamped. -/
theorem addRows_hit {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    (idx (ix2 e 0)).toInt = ((i 0).val : Int) := by
  unfold ScatterDims.resultIdx? at h
  split at h
  · rename_i hb
    have hi := congrFun (Option.some.inj h) 0
    have hv : ((addRowsDims N E C wf).start (ix2 e c) idx 0 + (addRowsDims N E C wf).window (ix2 e c) 0).toNat = (i 0).val :=
      congrArg Fin.val hi
    have hpos := (hb 0).1
    have hm : (0 : Fin 2) ∈ (addRowsDims N E C wf).scatterDimsToOperandDims := by simp
    have hw : (addRowsDims N E C wf).window (ix2 e c) 0 = 0 := by
      unfold ScatterDims.window
      rw [dif_neg]
      simp [ScatterDims.sKept, Shape.kept]
    have hs : (addRowsDims N E C wf).start (ix2 e c) idx 0 = (idx (ix2 e 0)).toInt := by
      unfold ScatterDims.start
      rw [dif_pos hm]
      have hsi : (addRowsDims N E C wf).siIdx (ix2 e c) ⟨List.idxOf (0 : Fin 2) (addRowsDims N E C wf).scatterDimsToOperandDims,
          List.idxOf_lt_length_iff.2 hm⟩ = ix2 e 0 := by
        funext b; refine Fin.ext ?_
        match b with
        | ⟨0, _⟩ => rfl
        | ⟨1, _⟩ => rfl
      rw [hsi]
    rw [hw, hs] at hv hpos
    simp only [Nat.cast_zero, add_zero] at hv hpos
    omega
  · exact absurd h (by simp)

end Scatter

end Cert.Lib

end
-- ==== Proof.LibAdjacency.lean ====
/-
  A graph aggregation written two ways, over the extended reals.

  One program builds a dense adjacency matrix `A[i, k]` = the sum of the weights `w e` of the edges `e` with
  `(dst e, src e) = (i, k)` — one accumulating scatter of scalars through a two-column array of index words — and
  multiplies `A` by a feature matrix `M`. The other takes row `src e` of `M` for every edge, scales it by `w e` and adds
  it into row `dst e` by an accumulating scatter of rows. When every weight is nonnegative the two agree with no
  finiteness assumption: `(a + b) * c = a * c + b * c` holds on the extended reals for `0 ≤ a`, `0 ≤ b`
  (`sum_mul_of_nonneg`), so each entry `A[i, k] * M[k]` spreads over its edges, and regrouping the edges into `i` by
  their source gives the other sum (`aggregate_eq`).

  Then the two scatters read at an entry: the scalar scatter through two columns of index words
  (`pairs_scatterAdd_apply`) and the row scatter through one column (`addRows_scatterAdd_apply`), each the operand's
  entry plus the sum of the updates whose index words name it, when every word names a row of the operand. Last, a word
  that names a row is its own clamp (`clampRow_of_range`), and the nonnegativity facts that carry `0 ≤ w e` through a
  reciprocal square root, an accumulating scatter, a gather and a product.
-/
import Idealize.ShloMosaic.PureOps.Ideal
import Idealize.ShloMosaic.PureOps.Ideal.Laws
import Idealize.ShloMosaic.Lib.ValueIdx
import proofs.«173505_j47330539602646_2_alg».proof.Proof.LibIndexedRows

noncomputable section

open scoped BigOperators

namespace Cert.Lib

open Idealize.ShloMosaic Idealize.ShloMosaic.ValueIdx

/-! ## The algebra -/

/-- A sum of nonnegative extended reals times `m` is the sum of the products. -/
theorem sum_mul_of_nonneg {ι : Type*} (s : Finset ι) (a : ι → EReal) (ha : ∀ e ∈ s, 0 ≤ a e) (m : EReal) :
    (∑ e ∈ s, a e) * m = ∑ e ∈ s, a e * m := by
  classical
  induction s using Finset.induction_on with
  | empty => simp
  | insert x s hx ih =>
    rw [Finset.sum_insert hx, Finset.sum_insert hx,
      EReal.right_distrib_of_nonneg (ha x (Finset.mem_insert_self x s))
        (Finset.sum_nonneg fun e he => ha e (Finset.mem_insert_of_mem he)),
      ih fun e he => ha e (Finset.mem_insert_of_mem he)]

/-- Row `i` of (adjacency matrix) × (vector): the sum over the edges into `i` of the vector at the edge's source times
    the edge's weight. -/
theorem aggregate_eq {E N : ℕ} (D S : Fin E → Fin N) (a : Fin E → EReal) (ha : ∀ e, 0 ≤ a e) (M : Fin N → EReal)
    (i : Fin N) :
    ∑ k : Fin N, (∑ e ∈ Finset.univ.filter (fun e => D e = i ∧ S e = k), a e) * M k
      = ∑ e ∈ Finset.univ.filter (fun e => D e = i), M (S e) * a e := by
  have h1 : ∀ k : Fin N, (∑ e ∈ Finset.univ.filter (fun e => D e = i ∧ S e = k), a e) * M k
      = ∑ e ∈ (Finset.univ.filter (fun e => D e = i)).filter (fun e => S e = k), M (S e) * a e := by
    intro k
    rw [sum_mul_of_nonneg _ _ (fun e _ => ha e), Finset.filter_filter]
    refine Finset.sum_congr rfl fun e he => ?_
    rw [(Finset.mem_filter.mp he).2.2, mul_comm]
  rw [Finset.sum_congr rfl fun k _ => h1 k]
  exact Finset.sum_fiberwise _ S _

/-! ## Nonnegativity -/

/-- The reciprocal square root of a nonnegative extended real is nonnegative (`0 ↦ ⊤`, `⊤ ↦ 0`). -/
theorem rsqrt_nonneg (x : EReal) (h : 0 ≤ x) : 0 ≤ Ideal.rsqrt x := by
  induction x using EReal.rec with
  | bot => exact absurd h (by simp)
  | top => simp
  | coe r =>
    have hr : 0 ≤ r := by exact_mod_cast h
    rw [Ideal.rsqrt_coe, if_neg (not_lt.mpr hr)]
    split
    · exact le_top
    · exact_mod_cast inv_nonneg.mpr (Real.sqrt_nonneg r)

/-- An accumulating scatter of nonnegative updates into a nonnegative operand is nonnegative. -/
theorem scatterAdd_nonneg {s si su : Shape} {w : ℕ} (d : ScatterDims s si su) (Z : s.Idx → EReal) (idx : IVec si w)
    (U : su.Idx → EReal) (hZ : ∀ i, 0 ≤ Z i) (hU : ∀ j, 0 ≤ U j) (i : s.Idx) :
    0 ≤ Host.scatterAdd (F := Ideal) (φ := .f32) d Z idx U i :=
  add_nonneg (hZ i) (Finset.sum_nonneg fun j _ => hU j)

/-- A gather reads the operand at some index: what holds of every operand element holds of every result element. -/
theorem gather_forall {α : Type} {s si so : Shape} {w : ℕ} (d : GatherDims s si so) (x : s.Idx → α) (idx : IVec si w)
    (P : α → Prop) (hx : ∀ i, P (x i)) (j : so.Idx) : P (Host.gather d x idx j) :=
  hx _

/-- A product of nonnegative extended reals is nonnegative. -/
theorem mul_nonneg' (a b : EReal) (ha : 0 ≤ a) (hb : 0 ≤ b) : 0 ≤ a * b := EReal.mul_nonneg ha hb

/-! ## The scalar scatter through two columns of index words -/

/-- A sum over a rank-1 index set is the sum over its coordinate. -/
theorem sum_ix1 {M : Type*} [AddCommMonoid M] {n : Nat} (f : (⟨1, ![n]⟩ : Shape).Idx → M) :
    ∑ j, f j = ∑ e : Fin n, f (ix1 e) := by
  refine Fintype.sum_equiv ⟨fun j => j 0, fun e => ix1 e, fun j => (eq_ix1 j).symm, fun _ => rfl⟩ _ _ fun j => ?_
  exact congrArg f (eq_ix1 j)

/-- The dimension numbers of "add update `e` into the operand's entry `(idx[e, 0], idx[e, 1])`". -/
abbrev pairsDims (N E : Nat)
    (wf : ScatterDims.WF ⟨2, ![N, N]⟩ ⟨2, ![E, 2]⟩ ⟨1, ![E]⟩ [] [0, 1] [0, 1] 1) :
    ScatterDims ⟨2, ![N, N]⟩ ⟨2, ![E, 2]⟩ ⟨1, ![E]⟩ where
  updateWindowDims := []
  insertedWindowDims := [0, 1]
  scatterDimsToOperandDims := [0, 1]
  indexVectorDim := 1
  wf := wf

theorem pairs_window {N E : Nat}
    (wf : ScatterDims.WF ⟨2, ![N, N]⟩ ⟨2, ![E, 2]⟩ ⟨1, ![E]⟩ [] [0, 1] [0, 1] 1)
    (j : (⟨1, ![E]⟩ : Shape).Idx) (a : Fin 2) : (pairsDims N E wf).window j a = 0 := by
  unfold ScatterDims.window
  rw [dif_neg]
  match a with
  | ⟨0, _⟩ => simp [ScatterDims.sKept, Shape.kept]
  | ⟨1, _⟩ => simp [ScatterDims.sKept, Shape.kept]

theorem pairs_start0 {N E w : Nat}
    (wf : ScatterDims.WF ⟨2, ![N, N]⟩ ⟨2, ![E, 2]⟩ ⟨1, ![E]⟩ [] [0, 1] [0, 1] 1)
    (idx : IVec ⟨2, ![E, 2]⟩ w) (e : Fin E) :
    (pairsDims N E wf).start (ix1 e) idx 0 = (idx (ix2 e 0)).toInt := by
  have hm : (0 : Fin 2) ∈ (pairsDims N E wf).scatterDimsToOperandDims := by simp
  unfold ScatterDims.start
  rw [dif_pos hm]
  have hsi : (pairsDims N E wf).siIdx (ix1 e) ⟨List.idxOf (0 : Fin 2) (pairsDims N E wf).scatterDimsToOperandDims,
      List.idxOf_lt_length_iff.2 hm⟩ = ix2 e 0 := by
    funext b; refine Fin.ext ?_
    match b with
    | ⟨0, _⟩ => rfl
    | ⟨1, _⟩ => rfl
  rw [hsi]

theorem pairs_start1 {N E w : Nat}
    (wf : ScatterDims.WF ⟨2, ![N, N]⟩ ⟨2, ![E, 2]⟩ ⟨1, ![E]⟩ [] [0, 1] [0, 1] 1)
    (idx : IVec ⟨2, ![E, 2]⟩ w) (e : Fin E) :
    (pairsDims N E wf).start (ix1 e) idx 1 = (idx (ix2 e 1)).toInt := by
  have hm : (1 : Fin 2) ∈ (pairsDims N E wf).scatterDimsToOperandDims := by simp
  unfold ScatterDims.start
  rw [dif_pos hm]
  have hsi : (pairsDims N E wf).siIdx (ix1 e) ⟨List.idxOf (1 : Fin 2) (pairsDims N E wf).scatterDimsToOperandDims,
      List.idxOf_lt_length_iff.2 hm⟩ = ix2 e 1 := by
    funext b; refine Fin.ext ?_
    match b with
    | ⟨0, _⟩ => rfl
    | ⟨1, _⟩ => rfl
  rw [hsi]

/-- Update `e` lands at the entry its two index words name, when both name a row of the matrix. -/
theorem pairs_resultIdx {N E w : Nat}
    (wf : ScatterDims.WF ⟨2, ![N, N]⟩ ⟨2, ![E, 2]⟩ ⟨1, ![E]⟩ [] [0, 1] [0, 1] 1)
    (idx : IVec ⟨2, ![E, 2]⟩ w) (D S : Fin E → Fin N)
    (hD : ∀ e, (idx (ix2 e 0)).toInt = ((D e).val : Int)) (hS : ∀ e, (idx (ix2 e 1)).toInt = ((S e).val : Int))
    (e : Fin E) : (pairsDims N E wf).resultIdx? (ix1 e) idx = some (ix2 (D e) (S e)) := by
  have h0 : (pairsDims N E wf).start (ix1 e) idx 0 + (pairsDims N E wf).window (ix1 e) 0 = ((D e).val : Int) := by
    rw [pairs_start0, pairs_window, hD]; simp
  have h1 : (pairsDims N E wf).start (ix1 e) idx 1 + (pairsDims N E wf).window (ix1 e) 1 = ((S e).val : Int) := by
    rw [pairs_start1, pairs_window, hS]; simp
  have key : ∀ a : Fin 2, (pairsDims N E wf).start (ix1 e) idx a + ((pairsDims N E wf).window (ix1 e) a : Nat)
      = ((ix2 (D e) (S e) a).val : Int) := by
    intro a
    match a with
    | ⟨0, _⟩ => exact h0
    | ⟨1, _⟩ => exact h1
  unfold ScatterDims.resultIdx?
  rw [dif_pos]
  · congr 1
    funext a; refine Fin.ext ?_
    show ((pairsDims N E wf).start (ix1 e) idx a + ((pairsDims N E wf).window (ix1 e) a : Nat)).toNat
      = (ix2 (D e) (S e) a).val
    rw [key a, Int.toNat_natCast]
  · intro a
    rw [key a]
    exact ⟨Int.natCast_nonneg _, by exact_mod_cast (ix2 (D e) (S e) a).isLt⟩

/-- The scatter at `(i, k)`: the operand's entry plus the sum of the updates whose two index words are `i` and `k`. -/
theorem pairs_scatterAdd_apply {N E w : Nat}
    (wf : ScatterDims.WF ⟨2, ![N, N]⟩ ⟨2, ![E, 2]⟩ ⟨1, ![E]⟩ [] [0, 1] [0, 1] 1)
    (Z : (⟨2, ![N, N]⟩ : Shape).Idx → EReal) (idx : IVec ⟨2, ![E, 2]⟩ w) (u : (⟨1, ![E]⟩ : Shape).Idx → EReal)
    (D S : Fin E → Fin N)
    (hD : ∀ e, (idx (ix2 e 0)).toInt = ((D e).val : Int)) (hS : ∀ e, (idx (ix2 e 1)).toInt = ((S e).val : Int))
    (i k : Fin N) :
    Host.scatterAdd (F := Ideal) (φ := .f32) (pairsDims N E wf) Z idx u (ix2 i k)
      = Z (ix2 i k) + ∑ e ∈ Finset.univ.filter (fun e : Fin E => D e = i ∧ S e = k), u (ix1 e) := by
  show Z (ix2 i k) + ∑ j ∈ Finset.univ.filter (fun j => (pairsDims N E wf).resultIdx? j idx = some (ix2 i k)), u j = _
  congr 1
  rw [Finset.sum_filter, sum_ix1, Finset.sum_filter]
  refine Finset.sum_congr rfl fun e _ => ?_
  rw [pairs_resultIdx wf idx D S hD hS e]
  have hiff : (some (ix2 (D e) (S e)) = some (ix2 i k)) ↔ (D e = i ∧ S e = k) := by
    constructor
    · intro h
      have h' := Option.some.inj h
      exact ⟨congrFun h' 0, congrFun h' 1⟩
    · rintro ⟨rfl, rfl⟩; rfl
  simp only [hiff]

/-! ## The row scatter through one column of index words -/

theorem addRows_window0 {N E C : Nat}
    (wf : ScatterDims.WF ⟨2, ![N, C]⟩ ⟨2, ![E, 1]⟩ ⟨2, ![E, C]⟩ [1] [0] [0] 1)
    (j : (⟨2, ![E, C]⟩ : Shape).Idx) : (addRowsDims N E C wf).window j 0 = 0 := by
  unfold ScatterDims.window
  rw [dif_neg]
  simp [ScatterDims.sKept, Shape.kept]

theorem addRows_window1 {N E C : Nat}
    (wf : ScatterDims.WF ⟨2, ![N, C]⟩ ⟨2, ![E, 1]⟩ ⟨2, ![E, C]⟩ [1] [0] [0] 1)
    (e : Fin E) (c : Fin C) : (addRowsDims N E C wf).window (ix2 e c) 1 = c.val := by
  have hk : (1 : Fin 2) ∈ (addRowsDims N E C wf).sKept := by simp [ScatterDims.sKept, Shape.kept]
  unfold ScatterDims.window
  rw [dif_pos hk]
  rfl

theorem addRows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (addRowsDims N E C wf).start (ix2 e c) idx 0 = (idx (ix2 e 0)).toInt := by
  have hm : (0 : Fin 2) ∈ (addRowsDims N E C wf).scatterDimsToOperandDims := by simp
  unfold ScatterDims.start
  rw [dif_pos hm]
  have hsi : (addRowsDims N E C wf).siIdx (ix2 e c) ⟨List.idxOf (0 : Fin 2) (addRowsDims N E C wf).scatterDimsToOperandDims,
      List.idxOf_lt_length_iff.2 hm⟩ = ix2 e 0 := by
    funext b; refine Fin.ext ?_
    match b with
    | ⟨0, _⟩ => rfl
    | ⟨1, _⟩ => rfl
  rw [hsi]

theorem addRows_start1 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (addRowsDims N E C wf).start j idx 1 = 0 := by
  unfold ScatterDims.start
  rw [dif_neg]
  simp

/-- Update `(e, c)` lands at row `idx[e, 0]`, column `c`, when the word names a row of the matrix. -/
theorem addRows_resultIdx {N E C w : Nat}
    (wf : ScatterDims.WF ⟨2, ![N, C]⟩ ⟨2, ![E, 1]⟩ ⟨2, ![E, C]⟩ [1] [0] [0] 1)
    (idx : IVec ⟨2, ![E, 1]⟩ w) (D : Fin E → Fin N)
    (hD : ∀ e, (idx (ix2 e 0)).toInt = ((D e).val : Int)) (e : Fin E) (c : Fin C) :
    (addRowsDims N E C wf).resultIdx? (ix2 e c) idx = some (ix2 (D e) c) := by
  have key : ∀ a : Fin 2, (addRowsDims N E C wf).start (ix2 e c) idx a + ((addRowsDims N E C wf).window (ix2 e c) a : Nat)
      = ((ix2 (D e) c a).val : Int) := by
    intro a
    match a with
    | ⟨0, _⟩ =>
      show (addRowsDims N E C wf).start (ix2 e c) idx 0 + ((addRowsDims N E C wf).window (ix2 e c) 0 : Nat) = ((D e).val : Int)
      rw [addRows_start0, addRows_window0, hD]; simp
    | ⟨1, _⟩ =>
      show (addRowsDims N E C wf).start (ix2 e c) idx 1 + ((addRowsDims N E C wf).window (ix2 e c) 1 : Nat) = (c.val : Int)
      rw [addRows_start1, addRows_window1]; simp
  unfold ScatterDims.resultIdx?
  rw [dif_pos]
  · congr 1
    funext a; refine Fin.ext ?_
    show ((addRowsDims N E C wf).start (ix2 e c) idx a + ((addRowsDims N E C wf).window (ix2 e c) a : Nat)).toNat
      = (ix2 (D e) c a).val
    rw [key a, Int.toNat_natCast]
  · intro a
    rw [key a]
    exact ⟨Int.natCast_nonneg _, by exact_mod_cast (ix2 (D e) c a).isLt⟩

/-- The scatter at `(i, c)`: the operand's entry plus the sum over the update rows whose index word is `i` of their
    entry in column `c`. -/
theorem addRows_scatterAdd_apply {N E C w : Nat}
    (wf : ScatterDims.WF ⟨2, ![N, C]⟩ ⟨2, ![E, 1]⟩ ⟨2, ![E, C]⟩ [1] [0] [0] 1)
    (Z : (⟨2, ![N, C]⟩ : Shape).Idx → EReal) (idx : IVec ⟨2, ![E, 1]⟩ w) (U : (⟨2, ![E, C]⟩ : Shape).Idx → EReal)
    (D : Fin E → Fin N) (hD : ∀ e, (idx (ix2 e 0)).toInt = ((D e).val : Int)) (i : Fin N) (c : Fin C) :
    Host.scatterAdd (F := Ideal) (φ := .f32) (addRowsDims N E C wf) Z idx U (ix2 i c)
      = Z (ix2 i c) + ∑ e ∈ Finset.univ.filter (fun e : Fin E => D e = i), U (ix2 e c) := by
  show Z (ix2 i c) + ∑ j ∈ Finset.univ.filter (fun j => (addRowsDims N E C wf).resultIdx? j idx = some (ix2 i c)), U j = _
  congr 1
  rw [Finset.sum_filter, sum_idx2, Finset.sum_filter]
  refine Finset.sum_congr rfl fun e _ => ?_
  have hiff : ∀ c' : Fin C, (some (ix2 (D e) c') = some (ix2 i c)) ↔ (D e = i ∧ c' = c) := by
    intro c'
    constructor
    · intro h
      have h' := Option.some.inj h
      exact ⟨congrFun h' 0, congrFun h' 1⟩
    · rintro ⟨rfl, rfl⟩; rfl
  simp only [addRows_resultIdx wf idx D hD e, hiff]
  by_cases hi : D e = i
  · simp [hi]
  · simp [hi]

/-- A word that names a row is its own clamp. -/
theorem clampRow_of_range (N : ℕ) (hN : 0 < N) {w : ℕ} (b : BitVec w) (r : Fin N) (h : b.toInt = (r.val : Int)) :
    clampRow N hN b = r := by
  refine Fin.ext ?_
  show min b.toInt.toNat (N - 1) = r.val
  rw [h, Int.toNat_natCast]
  have := r.isLt
  omega

end Cert.Lib

end
-- ==== Proof.LibCountColumn.lean ====
/-
  Counting through a column of index words, as a vector and as a one-column matrix.

  The accumulating scatter adds update `j` into the operand element at `start j + window j`, where the start is
  the index word read as a SIGNED integer and NOT clamped, and an update that lands outside the operand is dropped.
  So update `j` lands on the element `i` exactly when `start j a + window j a = i a` on every axis `a`
  (`resultIdx?_eq_some_iff`), with no assumption on the index words.

  Two scatters read the same `[E, 1]` column of index words. One adds a vector of `E` updates into a vector of
  `N` entries: update `e` lands on entry `p` iff the word `idx[e, 0]`, read signed, is `p`
  (`addEntries_resultIdx_iff`). The other adds an `[E, C]` matrix of update rows into an `[N, C]` matrix: update
  `(e, c')` lands on `(p, c)` iff the word `idx[e, 0]` is `p` and `c' = c` (`addRows_resultIdx_iff`).
  Hence each scatter, at an entry, is the operand's entry plus the sum of the updates whose index word is that entry's
  row (`addEntries_scatterAdd_apply'`, `addRows_scatterAdd_apply'`) — words outside `[0, N)` name no row and their
  updates are dropped by both — and for `C = 1` the vector scatter at `p` is the column scatter at `(p, 0)` when
  the operands and the updates agree entry by entry (`scatterAdd_entries_eq_column`).
-/
import Idealize.ShloMosaic.PureOps.Ideal
import Idealize.ShloMosaic.PureOps.Ideal.Laws
import Idealize.ShloMosaic.Lib.ValueIdx
import proofs.«173505_j47330539602646_2_alg».proof.Proof.LibAdjacency

noncomputable section

open scoped BigOperators

namespace Cert.Lib

open Idealize.ShloMosaic Idealize.ShloMosaic.ValueIdx

/-! ## Where an update lands, for any dimension numbers -/

/-- Update `j` lands on the operand element `i` exactly when, on every operand axis, its signed unclamped start
    plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + ((d.window j a : Nat) : Int) = ((i a).val : Int) := by
  unfold ScatterDims.resultIdx?
  constructor
  · intro h
    split at h
    · rename_i hb
      intro a
      have hi := congrFun (Option.some.inj h) a
      have hv : (d.start j idx a + ((d.window j a : Nat) : Int)).toNat = (i a).val := congrArg Fin.val hi
      have hpos := (hb a).1
      omega
    · exact absurd h (by simp)
  · intro h
    rw [dif_pos]
    · congr 1
      funext a; refine Fin.ext ?_
      show (d.start j idx a + ((d.window j a : Nat) : Int)).toNat = (i a).val
      rw [h a, Int.toNat_natCast]
    · intro a
      rw [h a]
      exact ⟨Int.natCast_nonneg _, by exact_mod_cast (i a).isLt⟩

/-! ## The vector scatter through one column of index words -/

/-- The accumulating scatter of a vector of E updates into a vector of N entries through an [E,1] column of index words. -/
abbrev addEntriesDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The operand's one axis is inserted: the window coordinate on it is `0`. -/
theorem addEntries_window {N E : Nat}
    (wf : ScatterDims.WF ⟨1, ![N]⟩ ⟨2, ![E, 1]⟩ ⟨1, ![E]⟩ [] [0] [0] 1)
    (j : (⟨1, ![E]⟩ : Shape).Idx) (a : Fin 1) : (addEntriesDims N E wf).window j a = 0 := by
  obtain rfl : a = 0 := Subsingleton.elim _ _
  unfold ScatterDims.window
  rw [dif_neg]
  simp [ScatterDims.sKept, Shape.kept]

/-- The start of update `e` on the operand's one axis is the word `idx[e, 0]`, read signed. -/
theorem addEntries_start {N E w : Nat}
    (wf : ScatterDims.WF ⟨1, ![N]⟩ ⟨2, ![E, 1]⟩ ⟨1, ![E]⟩ [] [0] [0] 1)
    (idx : IVec ⟨2, ![E, 1]⟩ w) (e : Fin E) :
    (addEntriesDims N E wf).start (ix1 e) idx 0 = (idx (ix2 e 0)).toInt := by
  have hm : (0 : Fin 1) ∈ (addEntriesDims N E wf).scatterDimsToOperandDims := List.mem_singleton.mpr rfl
  unfold ScatterDims.start
  rw [dif_pos hm]
  have hsi : (addEntriesDims N E wf).siIdx (ix1 e) ⟨List.idxOf (0 : Fin 1) (addEntriesDims N E wf).scatterDimsToOperandDims,
      List.idxOf_lt_length_iff.2 hm⟩ = ix2 e 0 := by
    funext b; refine Fin.ext ?_
    match b with
    | ⟨0, _⟩ => rfl
    | ⟨1, _⟩ => rfl
  rw [hsi]

/-- Update `e` lands on entry `p` exactly when its index word, read signed, is `p`. -/
theorem addEntries_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (p : Fin N) :
    (addEntriesDims N E wf).resultIdx? (ix1 e) idx = some (ix1 p) ↔ (idx (ix2 e 0)).toInt = ((p.val : Nat) : Int) := by
  rw [resultIdx?_eq_some_iff]
  constructor
  · intro h
    have h0 : (addEntriesDims N E wf).start (ix1 e) idx 0 + (((addEntriesDims N E wf).window (ix1 e) 0 : Nat) : Int)
        = ((p.val : Nat) : Int) := h 0
    rw [addEntries_start, addEntries_window] at h0
    simpa using h0
  · intro h a
    obtain rfl : a = 0 := Subsingleton.elim _ _
    show (addEntriesDims N E wf).start (ix1 e) idx 0 + (((addEntriesDims N E wf).window (ix1 e) 0 : Nat) : Int)
      = ((p.val : Nat) : Int)
    rw [addEntries_start, addEntries_window, h]
    simp

/-- The vector scatter at `p`: the operand's entry plus the sum of the updates whose index word, read signed, is
    `p`. A word outside `[0, N)` is no `p`: its update is dropped. -/
theorem addEntries_scatterAdd_apply' {N E w : Nat}
    (wf : ScatterDims.WF ⟨1, ![N]⟩ ⟨2, ![E, 1]⟩ ⟨1, ![E]⟩ [] [0] [0] 1)
    (Z : (⟨1, ![N]⟩ : Shape).Idx → EReal) (idx : IVec ⟨2, ![E, 1]⟩ w) (U : (⟨1, ![E]⟩ : Shape).Idx → EReal)
    (p : Fin N) :
    Host.scatterAdd (F := Ideal) (φ := .f32) (addEntriesDims N E wf) Z idx U (ix1 p)
      = Z (ix1 p) + ∑ e ∈ Finset.univ.filter (fun e : Fin E => (idx (ix2 e 0)).toInt = ((p.val : Nat) : Int)),
          U (ix1 e) := by
  show Z (ix1 p) + ∑ j ∈ Finset.univ.filter (fun j => (addEntriesDims N E wf).resultIdx? j idx = some (ix1 p)), U j = _
  congr 1
  rw [Finset.sum_filter, sum_ix1, Finset.sum_filter]
  refine Finset.sum_congr rfl fun e _ => ?_
  simp only [addEntries_resultIdx_iff wf idx e p]

/-! ## The row scatter through one column of index words, with no assumption on the words -/

/-- Update `(e, c')` lands on `(p, c)` exactly when its index word, read signed, is `p` and `c' = c`. -/
theorem addRows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (p : Fin N) (c : Fin C) :
    (addRowsDims N E C wf).resultIdx? (ix2 e c') idx = some (ix2 p c)
      ↔ (idx (ix2 e 0)).toInt = ((p.val : Nat) : Int) ∧ c' = c := by
  rw [resultIdx?_eq_some_iff]
  constructor
  · intro h
    have h0 : (addRowsDims N E C wf).start (ix2 e c') idx 0 + (((addRowsDims N E C wf).window (ix2 e c') 0 : Nat) : Int)
        = ((p.val : Nat) : Int) := h 0
    have h1 : (addRowsDims N E C wf).start (ix2 e c') idx 1 + (((addRowsDims N E C wf).window (ix2 e c') 1 : Nat) : Int)
        = ((c.val : Nat) : Int) := h 1
    rw [addRows_start0, addRows_window0] at h0
    rw [addRows_start1, addRows_window1] at h1
    refine ⟨by simpa using h0, Fin.ext ?_⟩
    have h1' : ((c'.val : Nat) : Int) = ((c.val : Nat) : Int) := by simpa using h1
    exact_mod_cast h1'
  · rintro ⟨h, rfl⟩ a
    match a with
    | ⟨0, _⟩ =>
      show (addRowsDims N E C wf).start (ix2 e c') idx 0 + (((addRowsDims N E C wf).window (ix2 e c') 0 : Nat) : Int)
        = ((p.val : Nat) : Int)
      rw [addRows_start0, addRows_window0, h]; simp
    | ⟨1, _⟩ =>
      show (addRowsDims N E C wf).start (ix2 e c') idx 1 + (((addRowsDims N E C wf).window (ix2 e c') 1 : Nat) : Int)
        = ((c'.val : Nat) : Int)
      rw [addRows_start1, addRows_window1]; simp

/-- The row scatter at `(p, c)`: the operand's entry plus the sum over the update rows whose index word, read
    signed, is `p` of their entry in column `c`. A word outside `[0, N)` is no `p`: its row is dropped. -/
theorem addRows_scatterAdd_apply' {N E C w : Nat}
    (wf : ScatterDims.WF ⟨2, ![N, C]⟩ ⟨2, ![E, 1]⟩ ⟨2, ![E, C]⟩ [1] [0] [0] 1)
    (Z : (⟨2, ![N, C]⟩ : Shape).Idx → EReal) (idx : IVec ⟨2, ![E, 1]⟩ w) (U : (⟨2, ![E, C]⟩ : Shape).Idx → EReal)
    (p : Fin N) (c : Fin C) :
    Host.scatterAdd (F := Ideal) (φ := .f32) (addRowsDims N E C wf) Z idx U (ix2 p c)
      = Z (ix2 p c) + ∑ e ∈ Finset.univ.filter (fun e : Fin E => (idx (ix2 e 0)).toInt = ((p.val : Nat) : Int)),
          U (ix2 e c) := by
  show Z (ix2 p c) + ∑ j ∈ Finset.univ.filter (fun j => (addRowsDims N E C wf).resultIdx? j idx = some (ix2 p c)), U j = _
  congr 1
  rw [Finset.sum_filter, sum_idx2, Finset.sum_filter]
  refine Finset.sum_congr rfl fun e _ => ?_
  simp only [addRows_resultIdx_iff wf idx e _ p c]
  by_cases hi : (idx (ix2 e 0)).toInt = ((p.val : Nat) : Int)
  · simp [hi]
  · simp [hi]

/-! ## The two agree -/

/-- Entry `p` of the vector scatter is entry `(p, 0)` of the one-column scatter through the same index words, when
    the operands agree and the updates agree entry by entry: both are the operand's entry plus the sum of the updates
    whose index word, read signed, is `p`. -/
theorem scatterAdd_entries_eq_column {N E w : Nat}
    (wfK : ScatterDims.WF ⟨1, ![N]⟩ ⟨2, ![E, 1]⟩ ⟨1, ![E]⟩ [] [0] [0] 1)
    (wfR : ScatterDims.WF ⟨2, ![N, 1]⟩ ⟨2, ![E, 1]⟩ ⟨2, ![E, 1]⟩ [1] [0] [0] 1)
    (ZK : (⟨1, ![N]⟩ : Shape).Idx → EReal) (ZR : (⟨2, ![N, 1]⟩ : Shape).Idx → EReal) (idx : IVec ⟨2, ![E, 1]⟩ w)
    (UK : (⟨1, ![E]⟩ : Shape).Idx → EReal) (UR : (⟨2, ![E, 1]⟩ : Shape).Idx → EReal)
    (hZ : ∀ p : Fin N, ZK (ix1 p) = ZR (ix2 p (0 : Fin 1))) (hU : ∀ e : Fin E, UK (ix1 e) = UR (ix2 e (0 : Fin 1)))
    (p : Fin N) :
    Host.scatterAdd (F := Ideal) (φ := .f32) (addEntriesDims N E wfK) ZK idx UK (ix1 p)
      = Host.scatterAdd (F := Ideal) (φ := .f32) (addRowsDims N E 1 wfR) ZR idx UR (ix2 p (0 : Fin 1)) := by
  rw [addEntries_scatterAdd_apply', addRows_scatterAdd_apply', hZ p]
  congr 1
  exact Finset.sum_congr rfl fun e _ => hU e

end Cert.Lib

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«173505_j47330539602646_2_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.LibGcnLayer.lean ====
/-
  One graph-convolution layer, written two ways, agrees on the extended reals.

  A layer of a graph-convolution network over a graph with `N` nodes and `E` edges, each edge `e` carrying a source word and a
  destination word, sends a feature matrix `XW : [N, C]` to

      out[p, q] = Σ_{e : dst e = p} XW[src e, q] · dis[src e] · dis[p]  +  XW[p, q] · dis[p]²  +  bias,

  where `dis` is a vector of nonnegative reals (the inverse square roots of the degrees). Written one way, each edge's
  row is multiplied by the edge's weight `dis[src e] · dis[dst e]` and the rows are added into their destinations. Written the
  other way, the matrix is scaled by `dis` row by row first (`Y[p, q] = XW[p, q] · dis[p]`), the rows of `Y` are added into
  their destinations, the self term `Y[p, q]` is added, and the destination's factor `dis[p]` multiplies the whole sum at the end.

  The two agree entry by entry on the extended reals with no finiteness assumption on `XW` and no range assumption on the
  index words: both scatters sum over the SAME set of landing updates; at a landing update the destination word names row
  `p` exactly (a scatter reads its word signed and does not clamp it), so the edge's weight is `dis[src e] · dis[p]`; and
  multiplication by a nonnegative REAL distributes over sums of arbitrary extended reals, while multiplication of
  extended reals is commutative and associative.

  Beside the layer: the index normalisation `v < 0 ? v + n : v` is the identity at a nonnegative word; the clamped row of a
  word that names a row is that row; a landing update sits in the column it lands on; and the inverse square root of
  "one plus a count of ones" is a nonnegative real.
-/
import Mathlib.Data.EReal.Inv
import Idealize.ShloMosaic.PureOps.Ideal
import Idealize.ShloMosaic.PureOps.Ideal.Laws
import Idealize.ShloMosaic.Lib.ValueIdx
import Idealize.ShloMosaic.Lib.Affine
import proofs.«173505_j47330539602646_2_alg».proof.Proof.LibIndexedRows
import proofs.«173505_j47330539602646_2_alg».proof.Proof.LibERealSum

noncomputable section

namespace Cert.Lib

open scoped BigOperators
open Idealize.ShloMosaic Idealize.ShloMosaic.ValueIdx

/-! ## The algebra of one layer -/

/-- The layer's two arrangements, over an abstract finite set of landing updates: for a nonnegative real `r`,
    `r · ((0 + Σ a_j · d_j) + x · r) + b = ((0 + Σ a_j · (d_j · r)) + x · (r · r)) + b` for arbitrary extended reals
    `a_j`, `d_j`, `x`, `b`: a nonnegative real distributes over sums, and multiplication is commutative and associative. -/
theorem layer_algebra {ι : Type*} (S : Finset ι) (a d : ι → EReal) (x b : EReal) {r : ℝ} (hr : 0 ≤ r) :
    (r : EReal) * ((0 + ∑ j ∈ S, a j * d j) + x * (r : EReal)) + b
      = ((0 + ∑ j ∈ S, a j * (d j * (r : EReal))) + x * ((r : EReal) * (r : EReal))) + b := by
  have h0 : (0 : EReal) ≤ (r : EReal) := EReal.coe_nonneg.2 hr
  have ht : (r : EReal) ≠ ⊤ := EReal.coe_ne_top r
  have hs : (r : EReal) * ∑ j ∈ S, a j * d j = ∑ j ∈ S, a j * (d j * (r : EReal)) := by
    rw [mul_comm, sum_mul_coe S (fun j => a j * d j) hr]
    exact Finset.sum_congr rfl (fun j _ => mul_assoc _ _ _)
  rw [zero_add, zero_add, EReal.left_distrib_of_nonneg_of_ne_top h0 ht, hs, mul_left_comm (r : EReal) x (r : EReal)]

/-! ## Index words -/

/-- The index normalisation `v < 0 ? v + n : v` at an index where the word is nonnegative (read signed): the word itself. -/
theorem select_norm_apply {s : Shape} {w : Nat} (v n z : IVec s w) (j : s.Idx) (hz : z j = 0#w) (hv : 0 ≤ (v j).toInt) :
    select (cmpi .slt v z) (addi v n) v j = v j := by
  have hc : cmpi .slt v z j = 0#1 := by
    apply eq_zero_of_ne_one
    show ¬ IntOp.cmpi .slt (v j) (z j) = 1#1
    rw [IntOp.cmpi_slt, hz, BitVec.toInt_zero]
    omega
  rw [select_apply, hc, select_zero]

/-- A word that, read signed, is the number of a row of an `N`-row array, names that row: the clamp does nothing. -/
theorem clampRow_of_toInt {N : Nat} (hN : 0 < N) {w : Nat} (b : BitVec w) (r : Fin N) (h : b.toInt = (r.val : Int)) :
    clampRow N hN b = r := by
  have h2 : b.toInt.toNat = r.val := by rw [h]; exact Int.toNat_natCast _
  have hlt := r.isLt
  refine Fin.ext ?_
  show min b.toInt.toNat (N - 1) = r.val
  rw [h2]
  omega

/-- An update that lands on entry `i` of the operand sits in `i`'s column: the window is the whole row, starting at column 0. -/
theorem addRows_hit_col {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    c.val = (i 1).val := by
  unfold ScatterDims.resultIdx? at h
  split at h
  · have hi := congrFun (Option.some.inj h) 1
    have hv : ((addRowsDims N E C wf).start (ix2 e c) idx 1 + (addRowsDims N E C wf).window (ix2 e c) 1).toNat = (i 1).val :=
      congrArg Fin.val hi
    have hm : (1 : Fin 2) ∉ (addRowsDims N E C wf).scatterDimsToOperandDims := by simp
    have hs : (addRowsDims N E C wf).start (ix2 e c) idx 1 = 0 := by
      unfold ScatterDims.start
      rw [dif_neg hm]
    have hk : (1 : Fin 2) ∈ (addRowsDims N E C wf).sKept := by simp [ScatterDims.sKept, Shape.kept]
    have hw : (addRowsDims N E C wf).window (ix2 e c) 1 = c.val := by
      unfold ScatterDims.window
      rw [dif_pos hk]
      rfl
    rw [hs, hw] at hv
    omega
  · exact absurd h (by simp)

/-! ## Degrees -/

/-- The f32 word `0x3F800000` is the number one. -/
theorem ofBits_one_f32 : Ideal.ofBits .f32 0x3F800000#32 = 1 := by
  simp [Ideal.ofBits, Ideal.ieee, -EReal.coe_mul]; norm_num

/-- The f32 word `0x00000000` is the number zero. -/
theorem ofBits_zero_f32 : Ideal.ofBits .f32 0x00000000#32 = 0 := Ideal.ofBits_zero_f32

/-- The inverse square root of "one plus a scatter of ones into zeros" is a nonnegative real: the scatter counts the
    updates that land on the entry, a natural number, so its successor is a positive real. -/
theorem rsqrt_count_real {s si u : Shape} {w : Nat} (d : ScatterDims s si u) (Z : s.Idx → EReal) (hZ : ∀ i, Z i = 0)
    (U : u.Idx → EReal) (hU : ∀ j, U j = 1) (idx : IVec si w) (i : s.Idx) :
    ∃ r : ℝ, 0 ≤ r ∧ Ideal.rsqrt (Host.scatterAdd (F := Ideal) (φ := .f32) d Z idx U i + 1) = (r : EReal) := by
  have hones : ∑ j ∈ Finset.univ.filter (fun j => d.resultIdx? j idx = some i), U j
      = (((Finset.univ.filter (fun j => d.resultIdx? j idx = some i)).card : ℝ) : EReal) := by
    rw [Finset.sum_congr rfl (fun j _ => hU j)]
    refine (sum_coe _ (fun _ => (1 : ℝ))).trans ?_
    simp
  have hpos : (0 : ℝ) < ((Finset.univ.filter (fun j => d.resultIdx? j idx = some i)).card : ℝ) + 1 := by positivity
  have hsum : Host.scatterAdd (F := Ideal) (φ := .f32) d Z idx U i + 1
      = ((((Finset.univ.filter (fun j => d.resultIdx? j idx = some i)).card : ℝ) + 1 : ℝ) : EReal) := by
    show Z i + ∑ j ∈ Finset.univ.filter (fun j => d.resultIdx? j idx = some i), U j + 1 = _
    rw [hZ, zero_add, hones, EReal.coe_add, EReal.coe_one]
  refine ⟨(Real.sqrt (((Finset.univ.filter (fun j => d.resultIdx? j idx = some i)).card : ℝ) + 1))⁻¹,
    inv_nonneg.2 (Real.sqrt_nonneg _), ?_⟩
  rw [hsum, Ideal.rsqrt_coe, if_neg (not_lt.2 hpos.le), if_neg hpos.ne']

/-! ## The layer, entry by entry -/

/-- The factor of the source row of update `(e, c)`: `dis` at the row the source word of edge `e` names (read signed, clamped). -/
def srcDis {N E C : Nat} (hN : 0 < N) (dis : (⟨1, ![N]⟩ : Shape).Idx → EReal) (srcn : IVec ⟨2, ![E, 1]⟩ 32)
    (j : (⟨2, ![E, C]⟩ : Shape).Idx) : EReal :=
  dis (ix1 (clampRow N hN (srcn (ix2 (j 0 : Fin E) 0))))

/-- One graph-convolution layer at entry `(p, q)`: scaling the rows by `dis` before the rows are added into their
    destinations and multiplying by the destination's `dis` afterwards, is the same as weighting each edge's row by
    `dis[src] · dis[dst]` and adding `XW[p, q] · dis[p]²`. `dstc` is the destination column the scatter reads; `srcn`, `dstn`
    are the (normalised) source and destination columns the gathers read; `hdst` says that wherever `dstc` names a row, the
    gather through `dstn` reads that row. No range assumption on the words, no finiteness assumption on `XW`. -/
theorem gcn_layer_apply {N E C : Nat} (hN : 0 < N)
    (wfR : GatherDims.WF ⟨2, ![N, C]⟩ ⟨2, ![E, 1]⟩ ⟨2, ![E, C]⟩ [1] [0] [] [0] [] 1 ![1, C])
    (wfE : GatherDims.WF ⟨1, ![N]⟩ ⟨2, ![E, 1]⟩ ⟨1, ![E]⟩ [] [0] [] [0] [] 1 ![1])
    (wfS : ScatterDims.WF ⟨2, ![N, C]⟩ ⟨2, ![E, 1]⟩ ⟨2, ![E, C]⟩ [1] [0] [0] 1)
    (XW Y : (⟨2, ![N, C]⟩ : Shape).Idx → EReal) (dis : (⟨1, ![N]⟩ : Shape).Idx → EReal)
    (hY : ∀ (p : Fin N) (q : Fin C), Y (ix2 p q) = XW (ix2 p q) * dis (ix1 p))
    (hdis : ∀ p : Fin N, ∃ r : ℝ, 0 ≤ r ∧ dis (ix1 p) = (r : EReal))
    (Z : (⟨2, ![N, C]⟩ : Shape).Idx → EReal) (hZ : ∀ j, Z j = 0)
    (dstc srcn dstn : IVec ⟨2, ![E, 1]⟩ 32)
    (hdst : ∀ (e : Fin E) (i : Fin N), (dstc (ix2 e 0)).toInt = (i.val : Int) → clampRow N hN (dstn (ix2 e 0)) = i)
    (NB : (⟨2, ![E, C]⟩ : Shape).Idx → EReal)
    (hNB : ∀ (e : Fin E) (q : Fin C), NB (ix2 e q)
      = Host.gather (entriesDims N E wfE) dis srcn (ix1 e) * Host.gather (entriesDims N E wfE) dis dstn (ix1 e))
    (p : Fin N) (q : Fin C) (bias : EReal) :
    dis (ix1 p) * (Host.scatterAdd (F := Ideal) (φ := .f32) (addRowsDims N E C wfS) Z dstc
        (Host.gather (rowsDims N E C wfR) Y srcn) (ix2 p q) + Y (ix2 p q)) + bias
      = (Host.scatterAdd (F := Ideal) (φ := .f32) (addRowsDims N E C wfS) Z dstc
          (fun j => Host.gather (rowsDims N E C wfR) XW srcn j * NB j) (ix2 p q)
        + XW (ix2 p q) * (dis (ix1 p) * dis (ix1 p))) + bias := by
  obtain ⟨r, hr, hrp⟩ := hdis p
  -- a gathered row of the scaled matrix is the gathered row of the matrix times the source row's factor
  have hGY : ∀ j, Host.gather (rowsDims N E C wfR) Y srcn j
      = Host.gather (rowsDims N E C wfR) XW srcn j * srcDis hN dis srcn j := by
    intro j
    obtain ⟨e, c, rfl⟩ : ∃ (e : Fin E) (c : Fin C), j = ix2 e c := ⟨j 0, j 1, eq_ix2 j⟩
    rw [gather_rows_apply hN, gather_rows_apply hN, hY]
    rfl
  -- at an update that lands on row p the edge's weight is the source row's factor times dis p
  have hNBj : ∀ j ∈ Finset.univ.filter (fun j => (addRowsDims N E C wfS).resultIdx? j dstc = some (ix2 p q)),
      NB j = srcDis hN dis srcn j * (r : EReal) := by
    intro j hj
    obtain ⟨e, c, rfl⟩ : ∃ (e : Fin E) (c : Fin C), j = ix2 e c := ⟨j 0, j 1, eq_ix2 j⟩
    have hrow : clampRow N hN (dstn (ix2 e 0)) = p :=
      hdst e p (addRows_hit wfS dstc e c (ix2 p q) (Finset.mem_filter.1 hj).2)
    rw [hNB, gather_entries_apply hN, gather_entries_apply hN, hrow, hrp]
    rfl
  have e1 : ∑ j ∈ Finset.univ.filter (fun j => (addRowsDims N E C wfS).resultIdx? j dstc = some (ix2 p q)),
        Host.gather (rowsDims N E C wfR) Y srcn j
      = ∑ j ∈ Finset.univ.filter (fun j => (addRowsDims N E C wfS).resultIdx? j dstc = some (ix2 p q)),
        Host.gather (rowsDims N E C wfR) XW srcn j * srcDis hN dis srcn j :=
    Finset.sum_congr rfl (fun j _ => hGY j)
  have e2 : ∑ j ∈ Finset.univ.filter (fun j => (addRowsDims N E C wfS).resultIdx? j dstc = some (ix2 p q)),
        Host.gather (rowsDims N E C wfR) XW srcn j * NB j
      = ∑ j ∈ Finset.univ.filter (fun j => (addRowsDims N E C wfS).resultIdx? j dstc = some (ix2 p q)),
        Host.gather (rowsDims N E C wfR) XW srcn j * (srcDis hN dis srcn j * (r : EReal)) :=
    Finset.sum_congr rfl (fun j hj => by rw [hNBj j hj])
  -- the two scatters: the operand's entry plus the sum over the updates that land on it
  show dis (ix1 p) * ((Z (ix2 p q)
        + ∑ j ∈ Finset.univ.filter (fun j => (addRowsDims N E C wfS).resultIdx? j dstc = some (ix2 p q)),
          Host.gather (rowsDims N E C wfR) Y srcn j) + Y (ix2 p q)) + bias
    = ((Z (ix2 p q)
        + ∑ j ∈ Finset.univ.filter (fun j => (addRowsDims N E C wfS).resultIdx? j dstc = some (ix2 p q)),
          Host.gather (rowsDims N E C wfR) XW srcn j * NB j) + XW (ix2 p q) * (dis (ix1 p) * dis (ix1 p))) + bias
  rw [e1, e2, hZ, hY, hrp]
  exact layer_algebra _ _ _ _ _ hr

end Cert.Lib

end
-- ==== Proof.LibSymmetricHops.lean ====
/-
  Propagation over a graph with symmetric degree normalisation, written two ways, agrees on the extended reals.

  A graph on `N` nodes is given by `E` edges, edge `e` carrying a source word and a target word, and `dis` is a vector of
  nonnegative REALS (the inverse square roots of the degrees, zero where the degree is zero). One step sends a feature
  matrix `H : [N, C]` to

      step H (p, q) = Σ_{e lands on p} dis[src e] · dis[p] · H[src e, q].

  Written per edge, every edge's gathered row is multiplied by the edge's weight `dis[src e] · dis[tgt e]` and the rows are
  added into their targets by an accumulating scatter. Written per node, the matrix is scaled row by row first
  (`Y[p, q] = dis[p] · H[p, q]`), the rows of `Y` are gathered and added into their targets, and the target's factor `dis[p]`
  multiplies the sum afterwards. The two agree entry by entry with no finiteness assumption on `H` and no range assumption
  on the index words: both scatters sum over the SAME set of landing updates; the scatter reads its word signed and does
  not clamp it, so at an update that lands on row `p` the target word names `p` exactly and the gathered factor is `dis[p]`;
  a nonnegative real distributes over a finite sum of arbitrary extended reals; and multiplication of extended reals is
  commutative and associative. Two steps compose: the per-node form of the second step may leave its last factor to
  whoever reads the result (`two_hops`).

  Beside the steps: `where(deg > 0, rsqrt deg, 0)` of a count of ones is a nonnegative real at every entry (the guard
  matters: the inverse square root of the real `0` is `+∞`), and the two layout readings the steps are spelled with —
  a per-row factor repeated along the row, and a per-edge product repeated along the row.
-/
import Mathlib.Data.EReal.Inv
import Idealize.ShloMosaic.PureOps.Ideal
import Idealize.ShloMosaic.PureOps.Ideal.Laws
import Idealize.ShloMosaic.Lib.ValueIdx
import proofs.«173505_j47330539602646_2_alg».proof.Proof.LibIndexedRows
import proofs.«173505_j47330539602646_2_alg».proof.Proof.LibCountColumn
import proofs.«173505_j47330539602646_2_alg».proof.Proof.LibERealSum
import proofs.«173505_j47330539602646_2_alg».proof.Proof.LibHostReads
import proofs.«173505_j47330539602646_2_alg».proof.Proof.LibGcnLayer

noncomputable section

namespace Cert.Lib

open scoped BigOperators
open Idealize.ShloMosaic Idealize.ShloMosaic.ValueIdx

/-! ## The normalising factor -/

/-- `where(deg > 0, rsqrt deg, 0)`, where `deg` is an accumulating scatter of ones into zeros: a nonnegative real at every
    entry. The scatter counts the updates that land on the entry; where the count is positive its inverse square root is a
    positive real, and where it is zero the guard selects the zero. -/
theorem guarded_rsqrt_count_real {s si u : Shape} {w : Nat} (d : ScatterDims s si u)
    (Z : s.Idx → EReal) (hZ : ∀ i, Z i = 0) (U : u.Idx → EReal) (hU : ∀ j, U j = 1) (idx : IVec si w)
    (z : s.Idx → EReal) (hz : ∀ i, z i = 0) (i : s.Idx) :
    ∃ r : ℝ, 0 ≤ r ∧
      select (cmpf (F := Ideal) (φ := .f32) .ogt (Host.scatterAdd (F := Ideal) (φ := .f32) d Z idx U) z)
        (Host.rsqrt (F := Ideal) (φ := .f32) (Host.scatterAdd (F := Ideal) (φ := .f32) d Z idx U)) z i = (r : EReal) := by
  have hones : ∑ j ∈ Finset.univ.filter (fun j => d.resultIdx? j idx = some i), U j
      = (((Finset.univ.filter (fun j => d.resultIdx? j idx = some i)).card : ℝ) : EReal) := by
    rw [Finset.sum_congr rfl (fun j _ => hU j)]
    refine (sum_coe _ (fun _ => (1 : ℝ))).trans ?_
    simp
  have hcount : Host.scatterAdd (F := Ideal) (φ := .f32) d Z idx U i
      = (((Finset.univ.filter (fun j => d.resultIdx? j idx = some i)).card : ℝ) : EReal) := by
    show Z i + ∑ j ∈ Finset.univ.filter (fun j => d.resultIdx? j idx = some i), U j = _
    rw [hZ, zero_add, hones]
  show ∃ r : ℝ, 0 ≤ r ∧ Scalar.select (Ideal.cmp .ogt (Host.scatterAdd (F := Ideal) (φ := .f32) d Z idx U i) (z i))
      (Ideal.rsqrt (Host.scatterAdd (F := Ideal) (φ := .f32) d Z idx U i)) (z i) = (r : EReal)
  rw [hcount, hz]
  generalize (((Finset.univ.filter (fun j => d.resultIdx? j idx = some i)).card : ℝ)) = c
  by_cases hc : 0 < c
  · have hbit : Ideal.cmp .ogt ((c : ℝ) : EReal) 0 = 1#1 := by
      show BitVec.ofBool (decide ((0 : EReal) < ((c : ℝ) : EReal))) = 1#1
      rw [decide_eq_true (EReal.coe_pos.2 hc)]; rfl
    refine ⟨(Real.sqrt c)⁻¹, inv_nonneg.2 (Real.sqrt_nonneg c), ?_⟩
    rw [hbit, select_one, Ideal.rsqrt_coe, if_neg (not_lt.2 hc.le), if_neg hc.ne']
  · have hbit : Ideal.cmp .ogt ((c : ℝ) : EReal) 0 = 0#1 := by
      show BitVec.ofBool (decide ((0 : EReal) < ((c : ℝ) : EReal))) = 0#1
      rw [decide_eq_false (fun h => hc (EReal.coe_pos.1 h))]; rfl
    refine ⟨0, le_rfl, ?_⟩
    rw [hbit, select_zero, EReal.coe_zero]

/-! ## The two spellings of a scaling, read at an entry -/

variable {N E C : Nat}

/-- Rows scaled by a per-row factor: the factor vector made a column and repeated along the row, times the matrix. -/
theorem scale_rows_apply (dis : (⟨1, ![N]⟩ : Shape).Idx → EReal)
    (h1 : (⟨1, ![N]⟩ : Shape).BroadcastsInDim ⟨2, ![N, 1]⟩ ![0])
    (h2 : (⟨2, ![N, 1]⟩ : Shape).BroadcastsInDim ⟨2, ![N, C]⟩ ![0, 1])
    (X : FVec Ideal ⟨2, ![N, C]⟩ .f32) (p : Fin N) (q : Fin C) :
    mulf (F := Ideal) (φ := .f32) (broadcastInDim ⟨2, ![N, C]⟩ ![0, 1] h2 (broadcastInDim ⟨2, ![N, 1]⟩ ![0] h1 dis)) X (ix2 p q)
      = dis (ix1 p) * X (ix2 p q) := by
  show broadcastInDim ⟨2, ![N, C]⟩ ![0, 1] h2 (broadcastInDim ⟨2, ![N, 1]⟩ ![0] h1 dis) (ix2 p q) * X (ix2 p q) = _
  rw [bcast_col_rows_apply _ h2 p q, bcast_col_apply dis h1 p 0]

/-- Rows scaled by a per-edge product: the product of two per-edge vectors made a column and repeated along the row, times
    the matrix of gathered rows. -/
theorem scale_edges_apply (a b : FVec Ideal ⟨1, ![E]⟩ .f32)
    (h1 : (⟨1, ![E]⟩ : Shape).BroadcastsInDim ⟨2, ![E, 1]⟩ ![0])
    (h2 : (⟨2, ![E, 1]⟩ : Shape).BroadcastsInDim ⟨2, ![E, C]⟩ ![0, 1])
    (G : FVec Ideal ⟨2, ![E, C]⟩ .f32) (e : Fin E) (q : Fin C) :
    mulf (F := Ideal) (φ := .f32)
        (broadcastInDim ⟨2, ![E, C]⟩ ![0, 1] h2 (broadcastInDim ⟨2, ![E, 1]⟩ ![0] h1 (mulf (F := Ideal) (φ := .f32) a b))) G (ix2 e q)
      = (a (ix1 e) * b (ix1 e)) * G (ix2 e q) := by
  show broadcastInDim ⟨2, ![E, C]⟩ ![0, 1] h2 (broadcastInDim ⟨2, ![E, 1]⟩ ![0] h1 (mulf (F := Ideal) (φ := .f32) a b)) (ix2 e q)
      * G (ix2 e q) = _
  rw [bcast_col_rows_apply _ h2 e q, bcast_col_apply _ h1 e 0]
  rfl

/-! ## One step, entry by entry -/

/-- One step at entry `(p, q)`: scaling the rows by `dis` before they are gathered and added into their targets, and
    multiplying by the target's `dis` afterwards, is the same as weighting each edge's gathered row by `dis[src] · dis[tgt]`.
    `dstc` is the target column the scatter reads; `srcn`, `dstn` are the (normalised) source and target columns the gathers
    read; `hdst` says that wherever `dstc` names a row, the gather through `dstn` reads that row. -/
theorem hop_apply (hN : 0 < N)
    (wfR : GatherDims.WF ⟨2, ![N, C]⟩ ⟨2, ![E, 1]⟩ ⟨2, ![E, C]⟩ [1] [0] [] [0] [] 1 ![1, C])
    (wfE : GatherDims.WF ⟨1, ![N]⟩ ⟨2, ![E, 1]⟩ ⟨1, ![E]⟩ [] [0] [] [0] [] 1 ![1])
    (wfS : ScatterDims.WF ⟨2, ![N, C]⟩ ⟨2, ![E, 1]⟩ ⟨2, ![E, C]⟩ [1] [0] [0] 1)
    (H Y : (⟨2, ![N, C]⟩ : Shape).Idx → EReal) (dis : (⟨1, ![N]⟩ : Shape).Idx → EReal)
    (hY : ∀ (p : Fin N) (q : Fin C), Y (ix2 p q) = dis (ix1 p) * H (ix2 p q))
    (hdis : ∀ p : Fin N, ∃ r : ℝ, 0 ≤ r ∧ dis (ix1 p) = (r : EReal))
    (Z : (⟨2, ![N, C]⟩ : Shape).Idx → EReal) (hZ : ∀ j, Z j = 0)
    (dstc srcn dstn : IVec ⟨2, ![E, 1]⟩ 32)
    (hdst : ∀ (e : Fin E) (i : Fin N), (dstc (ix2 e 0)).toInt = (i.val : Int) → clampRow N hN (dstn (ix2 e 0)) = i)
    (U : (⟨2, ![E, C]⟩ : Shape).Idx → EReal)
    (hU : ∀ (e : Fin E) (q : Fin C), U (ix2 e q)
      = (Host.gather (entriesDims N E wfE) dis srcn (ix1 e) * Host.gather (entriesDims N E wfE) dis dstn (ix1 e))
          * Host.gather (rowsDims N E C wfR) H srcn (ix2 e q))
    (p : Fin N) (q : Fin C) :
    dis (ix1 p) * Host.scatterAdd (F := Ideal) (φ := .f32) (addRowsDims N E C wfS) Z dstc
        (Host.gather (rowsDims N E C wfR) Y srcn) (ix2 p q)
      = Host.scatterAdd (F := Ideal) (φ := .f32) (addRowsDims N E C wfS) Z dstc U (ix2 p q) := by
  obtain ⟨r, hr, hrp⟩ := hdis p
  rw [addRows_scatterAdd_apply' wfS Z dstc U p q, addRows_scatterAdd_apply' wfS Z dstc _ p q, hZ, zero_add, zero_add, hrp,
    mul_comm, sum_mul_coe _ _ hr]
  refine Finset.sum_congr rfl fun e he => ?_
  have hrow : clampRow N hN (dstn (ix2 e 0)) = p := hdst e p (Finset.mem_filter.1 he).2
  rw [hU, gather_rows_apply hN, gather_rows_apply hN, gather_entries_apply hN, gather_entries_apply hN, hrow, hrp, hY]
  exact mul_right_comm _ _ _

/-! ## Two steps -/

/-- Two steps at entry `(p, q)`. Per node: `Y1 = dis · x`, `H1 = dis · (rows of Y1 added into their targets)`, `Y2 = dis · H1`,
    the rows of `Y2` added into their targets, and the last factor `dis[p]` applied on the right by whoever reads the result.
    Per edge: `U1`, `U2` the weighted gathered rows of `x` and of the first step's result. -/
theorem two_hops (hN : 0 < N)
    (wfR : GatherDims.WF ⟨2, ![N, C]⟩ ⟨2, ![E, 1]⟩ ⟨2, ![E, C]⟩ [1] [0] [] [0] [] 1 ![1, C])
    (wfE : GatherDims.WF ⟨1, ![N]⟩ ⟨2, ![E, 1]⟩ ⟨1, ![E]⟩ [] [0] [] [0] [] 1 ![1])
    (wfS : ScatterDims.WF ⟨2, ![N, C]⟩ ⟨2, ![E, 1]⟩ ⟨2, ![E, C]⟩ [1] [0] [0] 1)
    (x : (⟨2, ![N, C]⟩ : Shape).Idx → EReal) (dis : (⟨1, ![N]⟩ : Shape).Idx → EReal)
    (hdis : ∀ p : Fin N, ∃ r : ℝ, 0 ≤ r ∧ dis (ix1 p) = (r : EReal))
    (Z : (⟨2, ![N, C]⟩ : Shape).Idx → EReal) (hZ : ∀ j, Z j = 0)
    (dstc srcn dstn : IVec ⟨2, ![E, 1]⟩ 32)
    (hdst : ∀ (e : Fin E) (i : Fin N), (dstc (ix2 e 0)).toInt = (i.val : Int) → clampRow N hN (dstn (ix2 e 0)) = i)
    (Y1 H1 Y2 : (⟨2, ![N, C]⟩ : Shape).Idx → EReal)
    (hY1 : ∀ (p : Fin N) (q : Fin C), Y1 (ix2 p q) = dis (ix1 p) * x (ix2 p q))
    (hH1 : ∀ (p : Fin N) (q : Fin C), H1 (ix2 p q) = dis (ix1 p) * Host.scatterAdd (F := Ideal) (φ := .f32)
        (addRowsDims N E C wfS) Z dstc (Host.gather (rowsDims N E C wfR) Y1 srcn) (ix2 p q))
    (hY2 : ∀ (p : Fin N) (q : Fin C), Y2 (ix2 p q) = dis (ix1 p) * H1 (ix2 p q))
    (U1 U2 : (⟨2, ![E, C]⟩ : Shape).Idx → EReal)
    (hU1 : ∀ (e : Fin E) (q : Fin C), U1 (ix2 e q)
      = (Host.gather (entriesDims N E wfE) dis srcn (ix1 e) * Host.gather (entriesDims N E wfE) dis dstn (ix1 e))
          * Host.gather (rowsDims N E C wfR) x srcn (ix2 e q))
    (hU2 : ∀ (e : Fin E) (q : Fin C), U2 (ix2 e q)
      = (Host.gather (entriesDims N E wfE) dis srcn (ix1 e) * Host.gather (entriesDims N E wfE) dis dstn (ix1 e))
          * Host.gather (rowsDims N E C wfR)
              (Host.scatterAdd (F := Ideal) (φ := .f32) (addRowsDims N E C wfS) Z dstc U1) srcn (ix2 e q))
    (p : Fin N) (q : Fin C) :
    Host.scatterAdd (F := Ideal) (φ := .f32) (addRowsDims N E C wfS) Z dstc
        (Host.gather (rowsDims N E C wfR) Y2 srcn) (ix2 p q) * dis (ix1 p)
      = Host.scatterAdd (F := Ideal) (φ := .f32) (addRowsDims N E C wfS) Z dstc U2 (ix2 p q) := by
  have h1 : H1 = Host.scatterAdd (F := Ideal) (φ := .f32) (addRowsDims N E C wfS) Z dstc U1 := by
    funext i
    obtain ⟨p', q', rfl⟩ : ∃ (p' : Fin N) (q' : Fin C), i = ix2 p' q' := ⟨i 0, i 1, eq_ix2 i⟩
    rw [hH1]
    exact hop_apply hN wfR wfE wfS x Y1 dis hY1 hdis Z hZ dstc srcn dstn hdst U1 hU1 p' q'
  rw [mul_comm]
  exact hop_apply hN wfR wfE wfS H1 Y2 dis hY2 hdis Z hZ dstc srcn dstn hdst U2 (fun e q' => by rw [h1]; exact hU2 e q') p q

end Cert.Lib

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«173505_j47330539602646_2_alg».proof.Proof.LibMatmul2
import proofs.«173505_j47330539602646_2_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.LibDenseLayers.lean ====
/-
  One layer of a graph-SAGE network with mean aggregation, entry by entry, on the extended reals.

  A layer takes the aggregated neighbour features a (N rows of K entries), the node features x (same shape), two
  weight matrices wl, wr (K rows of B entries) and a bias vector b (B entries); its value at (p, q) before the
  activation is

      pre a x wl wr b p q = ∑ₖ a(p,k)·wl(k,q) + ∑ₖ x(p,k)·wr(k,q) + b(q).

  A hidden layer takes the maximum of that with zero; the last layer is a log-softmax along each row: with
  M(p) the running maximum of row p of `pre` from −∞,  out(p,q) = (pre(p,q) − M(p)) − log ∑ₖ exp(pre(p,k) − M(p)).
  Both are stated as ONE function of the result index.  Then the two ways the programs spell these: a tile of rows
  computed by two matrix products into zero accumulators, their sum, a bias row repeated along the rows, and the
  activation (the tile form reads the bias as a one-row matrix); and the same on whole arrays with the host's
  products, sums and repetitions.  Only sums, products, maxima and differences occur, each applied in the same
  order on both sides, so no law of the extended reals beyond "the maximum of a bound with something at least that
  bound" is needed, and nothing has to be finite.
-/
import Idealize.ShloMosaic.PureOps.Ideal.Laws
import Idealize.ShloMosaic.Lib.ValueIdx
import Idealize.ShloMosaic.Lib.ValueLayout
import proofs.«173505_j47330539602646_2_alg».proof.Proof.LibEntryReads
import proofs.«173505_j47330539602646_2_alg».proof.Proof.LibHostReads

noncomputable section

open scoped BigOperators

namespace Cert.Sage

open Idealize.ShloMosaic Idealize.ShloMosaic.ValueIdx

variable {N K B : ℕ}

/-- The layer before its activation, at row p and column q. -/
def pre (a x : FVec Ideal ⟨2, ![N, K]⟩ .f32) (wl wr : FVec Ideal ⟨2, ![K, B]⟩ .f32) (b : FVec Ideal ⟨1, ![B]⟩ .f32)
    (p : Fin N) (q : Fin B) : EReal :=
  (∑ k : Fin K, a (ix2 p k) * wl (ix2 k q)) + (∑ k : Fin K, x (ix2 p k) * wr (ix2 k q)) + b (ix1 q)

/-- A hidden layer: the maximum of the pre-activation with zero, as one function of the result index. -/
def hidden (a x : FVec Ideal ⟨2, ![N, K]⟩ .f32) (wl wr : FVec Ideal ⟨2, ![K, B]⟩ .f32) (b : FVec Ideal ⟨1, ![B]⟩ .f32) :
    FVec Ideal ⟨2, ![N, B]⟩ .f32 := fun i =>
  max (pre a x wl wr b ⟨(i 0).val, idx2_lt0 i⟩ ⟨(i 1).val, idx2_lt1 i⟩) (Ideal.ofBits .f32 0x00000000#32)

/-- The running maximum of row p of the pre-activation, from −∞. -/
def rowTop (a x : FVec Ideal ⟨2, ![N, K]⟩ .f32) (wl wr : FVec Ideal ⟨2, ![K, B]⟩ .f32) (b : FVec Ideal ⟨1, ![B]⟩ .f32)
    (p : Fin N) : EReal :=
  (Finset.univ : Finset (Fin B)).fold max (Ideal.ofBits .f32 0xFF800000#32) (fun k => pre a x wl wr b p k)

/-- The last layer at row p and column q: the log-softmax of row p of the pre-activation. -/
def lsm (a x : FVec Ideal ⟨2, ![N, K]⟩ .f32) (wl wr : FVec Ideal ⟨2, ![K, B]⟩ .f32) (b : FVec Ideal ⟨1, ![B]⟩ .f32)
    (p : Fin N) (q : Fin B) : EReal :=
  (pre a x wl wr b p q - rowTop a x wl wr b p)
    - Ideal.log (∑ k : Fin B, Ideal.exp (pre a x wl wr b p k - rowTop a x wl wr b p))

/-- The last layer as one function of the result index. -/
def final (a x : FVec Ideal ⟨2, ![N, K]⟩ .f32) (wl wr : FVec Ideal ⟨2, ![K, B]⟩ .f32) (b : FVec Ideal ⟨1, ![B]⟩ .f32) :
    FVec Ideal ⟨2, ![N, B]⟩ .f32 := fun i =>
  lsm a x wl wr b ⟨(i 0).val, idx2_lt0 i⟩ ⟨(i 1).val, idx2_lt1 i⟩

theorem hidden_ix2 (a x : FVec Ideal ⟨2, ![N, K]⟩ .f32) (wl wr : FVec Ideal ⟨2, ![K, B]⟩ .f32) (b : FVec Ideal ⟨1, ![B]⟩ .f32)
    (p : Fin N) (q : Fin B) :
    hidden a x wl wr b (ix2 p q) = max (pre a x wl wr b p q) (Ideal.ofBits .f32 0x00000000#32) := rfl

theorem final_ix2 (a x : FVec Ideal ⟨2, ![N, K]⟩ .f32) (wl wr : FVec Ideal ⟨2, ![K, B]⟩ .f32) (b : FVec Ideal ⟨1, ![B]⟩ .f32)
    (p : Fin N) (q : Fin B) : final a x wl wr b (ix2 p q) = lsm a x wl wr b p q := rfl

/-- A one-row matrix read as a vector. -/
def rowOf (r : FVec Ideal ⟨2, ![1, B]⟩ .f32) : FVec Ideal ⟨1, ![B]⟩ .f32 := fun i =>
  r (ix2 (0 : Fin 1) (⟨(i 0).val, (i 0).isLt⟩ : Fin B))

theorem rowOf_ix1 (r : FVec Ideal ⟨2, ![1, B]⟩ .f32) (q : Fin B) : rowOf r (ix1 q) = r (ix2 (0 : Fin 1) q) := rfl

/-- A vector cast to a one-row matrix and read back as a vector is the vector. -/
theorem rowOf_shapeCast (v : FVec Ideal ⟨1, ![B]⟩ .f32) (h : (⟨1, ![B]⟩ : Shape).ShapeCasts ⟨2, ![1, B]⟩) :
    rowOf (shapeCast ⟨2, ![1, B]⟩ v h) = v := by
  funext i
  obtain ⟨q, rfl⟩ : ∃ q : Fin B, i = ix1 q := ⟨i 0, eq_ix1 i⟩
  exact shapeCast_a_1a_apply v h 0 q

/-! ## A tile of rows, as a kernel body computes it -/

/-- Two matrix products of row tiles (after any change of float format) into zero accumulators, added, plus a bias row
    repeated along the rows, at (p, q): the layer's pre-activation of the tiles. -/
theorem tile_pre (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    {φ : FTy} (a x : FVec Ideal ⟨2, ![N, K]⟩ φ) (wl wr : FVec Ideal ⟨2, ![K, B]⟩ φ) (r : FVec Ideal ⟨2, ![1, B]⟩ .f32)
    (hb : (⟨2, ![1, B]⟩ : Shape).Broadcasts ⟨2, ![N, B]⟩) (p : Fin N) (q : Fin B) :
    addf (addf (matmul D none a wl (constant ⟨2, ![N, B]⟩ .f32 0x00000000#32))
        (matmul D none x wr (constant ⟨2, ![N, B]⟩ .f32 0x00000000#32))) (broadcastTo ⟨2, ![N, B]⟩ r hb) (ix2 p q)
      = (∑ k : Fin K, a (ix2 p k) * wl (ix2 k q)) + (∑ k : Fin K, x (ix2 p k) * wr (ix2 k q)) + r (ix2 (0 : Fin 1) q) := by
  show (matmul D none a wl (constant ⟨2, ![N, B]⟩ .f32 0x00000000#32) (ix2 p q)
      + matmul D none x wr (constant ⟨2, ![N, B]⟩ .f32 0x00000000#32) (ix2 p q)) + broadcastTo ⟨2, ![N, B]⟩ r hb (ix2 p q) = _
  rw [Cert.Lib.matmul_plain_apply D wf hD a wl p q, Cert.Lib.matmul_plain_apply D wf hD x wr p q,
    broadcastTo_1b_ab_apply r hb p q]

/-- The last layer's tile: from the tile's pre-activation z, the row maximum kept as a column and repeated, the
    difference, its exponential summed along the row, the logarithm of that column repeated, and the second difference,
    at (p, q). -/
theorem tile_lsm (z : FVec Ideal ⟨2, ![N, B]⟩ .f32)
    (hred : (⟨2, ![N, B]⟩ : Shape).Reduces [1] ⟨1, ![N]⟩) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![N]⟩ : Shape).ShapeCasts ⟨2, ![N, 1]⟩) (hb : (⟨2, ![N, 1]⟩ : Shape).Broadcasts ⟨2, ![N, B]⟩)
    (p : Fin N) (q : Fin B) :
    subf (subf z (broadcastTo ⟨2, ![N, B]⟩ (shapeCast ⟨2, ![N, 1]⟩ (multiReduction .maximumf [1] ⟨1, ![N]⟩ z 0xFF800000#32 hred hφ hmax) hc) hb))
        (broadcastTo ⟨2, ![N, B]⟩ (log (shapeCast ⟨2, ![N, 1]⟩ (multiReduction .add [1] ⟨1, ![N]⟩
          (exp (subf z (broadcastTo ⟨2, ![N, B]⟩ (shapeCast ⟨2, ![N, 1]⟩ (multiReduction .maximumf [1] ⟨1, ![N]⟩ z 0xFF800000#32 hred hφ hmax) hc) hb)))
          0x00000000#32 hred hφ hadd) hc)) hb) (ix2 p q)
      = (z (ix2 p q) - (Finset.univ : Finset (Fin B)).fold max (Ideal.ofBits .f32 0xFF800000#32) (fun k => z (ix2 p k)))
        - Ideal.log (∑ k : Fin B, Ideal.exp (z (ix2 p k)
            - (Finset.univ : Finset (Fin B)).fold max (Ideal.ofBits .f32 0xFF800000#32) (fun k => z (ix2 p k)))) := by
  have hm : ∀ c : Fin B, broadcastTo ⟨2, ![N, B]⟩ (shapeCast ⟨2, ![N, 1]⟩ (multiReduction .maximumf [1] ⟨1, ![N]⟩ z 0xFF800000#32 hred hφ hmax) hc) hb (ix2 p c)
      = (Finset.univ : Finset (Fin B)).fold max (Ideal.ofBits .f32 0xFF800000#32) (fun k => z (ix2 p k)) :=
    fun c => Cert.Lib.rowMax_keepdims_apply z 0xFF800000#32 hred hφ hmax hc hb p c
  show (z (ix2 p q) - broadcastTo ⟨2, ![N, B]⟩ _ hb (ix2 p q)) - broadcastTo ⟨2, ![N, B]⟩ (log _) hb (ix2 p q) = _
  rw [hm q, Cert.Lib.broadcastTo_a1_ab_apply _ hb p q]
  show _ - Ideal.log (shapeCast ⟨2, ![N, 1]⟩ _ hc (ix2 p (0 : Fin 1))) = _
  rw [Cert.Lib.shapeCast_a_a1_apply _ hc p 0, Cert.Lib.rowSum_apply _ 0x00000000#32 hred hφ hadd p]
  refine congrArg (fun s => _ - Ideal.log s) (Finset.sum_congr rfl fun k _ => ?_)
  show Ideal.exp (z (ix2 p k) - broadcastTo ⟨2, ![N, B]⟩ _ hb (ix2 p k)) = _
  rw [hm k]

/-! ## The same on whole arrays, as the host computes it -/

/-- The host's two products, their sum and the bias vector repeated along the rows, at (p, q). -/
theorem host_pre (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    (a x : FVec Ideal ⟨2, ![N, K]⟩ .f32) (wl wr : FVec Ideal ⟨2, ![K, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1]) (p : Fin N) (q : Fin B) :
    addf (addf (Host.dotGeneral D none a wl) (Host.dotGeneral D none x wr))
        (broadcastInDim ⟨2, ![N, B]⟩ ![0, 1] h2 (broadcastInDim ⟨2, ![1, B]⟩ ![1] h1 b)) (ix2 p q)
      = pre a x wl wr b p q := by
  show (Host.dotGeneral D none a wl (ix2 p q) + Host.dotGeneral D none x wr (ix2 p q))
      + broadcastInDim ⟨2, ![N, B]⟩ ![0, 1] h2 (broadcastInDim ⟨2, ![1, B]⟩ ![1] h1 b) (ix2 p q) = _
  rw [Cert.Lib.dotGeneral_plain_apply D wf hD a wl p q, Cert.Lib.dotGeneral_plain_apply D wf hD x wr p q,
    Cert.Lib.bcast_vec_rows_apply b h1 h2 p q]
  rfl

/-- The maximum of a bound with a running maximum that starts from that bound is the running maximum. -/
theorem max_fold_start {ι : Type} (s : Finset ι) (b : EReal) (f : ι → EReal) :
    max b (s.fold max b f) = s.fold max b f :=
  max_eq_right ((Finset.le_fold_max b).mpr (Or.inl le_rfl))

/-! ## The network -/

/-- Three layers over features of one width — two hidden, the last a log-softmax — each fed the aggregation `agg`
    of the features it is given beside the features themselves. -/
def net {M D O : ℕ} (agg : FVec Ideal ⟨2, ![M, D]⟩ .f32 → FVec Ideal ⟨2, ![M, D]⟩ .f32)
    (x : FVec Ideal ⟨2, ![M, D]⟩ .f32) (w1l w1r : FVec Ideal ⟨2, ![D, D]⟩ .f32) (b1 : FVec Ideal ⟨1, ![D]⟩ .f32)
    (wml wmr : FVec Ideal ⟨2, ![D, D]⟩ .f32) (bm : FVec Ideal ⟨1, ![D]⟩ .f32)
    (w2l w2r : FVec Ideal ⟨2, ![D, O]⟩ .f32) (b2 : FVec Ideal ⟨1, ![O]⟩ .f32) : FVec Ideal ⟨2, ![M, O]⟩ .f32 :=
  final (agg (hidden (agg (hidden (agg x) x w1l w1r b1)) (hidden (agg x) x w1l w1r b1) wml wmr bm))
    (hidden (agg (hidden (agg x) x w1l w1r b1)) (hidden (agg x) x w1l w1r b1) wml wmr bm) w2l w2r b2

end Cert.Sage

end
-- ==== Proof.LibScaledHead.lean ====
/-
  A dense layer followed by a row-wise log-softmax, in a kernel tile's spelling and in the host's, read at one entry.

  For a row of pre-activations `z : Fin B → EReal`, with `top z` the running maximum of the row from −∞,

      lsmRow z q = (z q − top z) − log Σₖ exp (z k − top z).

  A kernel tile of `A` rows computes, from a block `x0 : [A, K]` of features, a column `x3 : [A, 1]` of per-row factors, a
  weight matrix `x1 : [K, B]` and a one-row bias `x2 : [1, B]`: the rows of `x0` scaled by `x3`, (after a change of float
  format, the identity on the extended reals) their product with `x1` into the zero accumulator, plus the bias row repeated,
  and then the log-softmax with the row maximum and the row sum kept as columns. At `(p, q)` that is `lsmRow` of
  `k ↦ Σⱼ (x0(p,j) · x3(p,0)) · x1(j,k) + x2(0,k)`. Only row `p` of the block enters.

  The host computes on whole arrays `H : [N, K]`, `Wt : [K, B]`, `b : [B]`: the product, plus the bias vector repeated along the
  rows, and the log-softmax as jax lowers it — the row maximum from −∞, ITS MAXIMUM WITH −∞ AGAIN (the identity, since
  the running maximum starts from −∞), the difference, the row sum of exponentials from zero, the logarithm, the second
  difference. At `(p, q)` that is `lsmRow` of `k ↦ Σⱼ H(p,j) · Wt(j,k) + b(k)`.

  Sums, products, maxima and differences occur in the same order on both sides, so nothing has to be finite.
-/
import Idealize.ShloMosaic.PureOps.Ideal.Laws
import Idealize.ShloMosaic.Lib.ValueIdx
import Idealize.ShloMosaic.Lib.ValueLayout
import Idealize.ShloMosaic.Lib.Pipeline.Value
import proofs.«173505_j47330539602646_2_alg».proof.Proof.LibEntryReads
import proofs.«173505_j47330539602646_2_alg».proof.Proof.LibHostReads
import proofs.«173505_j47330539602646_2_alg».proof.Proof.LibDenseLayers

noncomputable section

open scoped BigOperators

namespace Cert.Lib

open Idealize.ShloMosaic Idealize.ShloMosaic.ValueIdx

variable {A N K B : ℕ}

/-- The running maximum of a row from −∞. -/
def top (z : Fin B → EReal) : EReal :=
  (Finset.univ : Finset (Fin B)).fold max (Ideal.ofBits .f32 0xFF800000#32) z

/-- The log-softmax of a row, at entry `q`. -/
def lsmRow (z : Fin B → EReal) (q : Fin B) : EReal :=
  (z q - top z) - Ideal.log (∑ k : Fin B, Ideal.exp (z k - top z))

/-! ## A tile of rows -/

/-- The tile's pre-activation: the block's rows scaled by the column of factors, times the weights (into the zero
    accumulator, after the changes of float format), plus the bias row repeated along the rows. -/
def tilePre (D : DotDims ⟨2, ![A, K]⟩ ⟨2, ![K, B]⟩ ⟨2, ![A, B]⟩)
    (x0 : FVec Ideal ⟨2, ![A, K]⟩ .f32) (x3 : FVec Ideal ⟨2, ![A, 1]⟩ .f32) (x1 : FVec Ideal ⟨2, ![K, B]⟩ .f32)
    (x2 : FVec Ideal ⟨2, ![1, B]⟩ .f32)
    (c0 : (⟨2, ![A, K]⟩ : Shape).ShapeCasts ⟨2, ![A, K]⟩) (c3 : (⟨2, ![A, 1]⟩ : Shape).ShapeCasts ⟨2, ![A, 1]⟩)
    (b3 : (⟨2, ![A, 1]⟩ : Shape).Broadcasts ⟨2, ![A, K]⟩) (hbits : FTy.bits .bf16 < FTy.bits .f32)
    (c1 : (⟨2, ![K, B]⟩ : Shape).ShapeCasts ⟨2, ![K, B]⟩) (c2 : (⟨2, ![1, B]⟩ : Shape).ShapeCasts ⟨2, ![1, B]⟩)
    (b2 : (⟨2, ![1, B]⟩ : Shape).Broadcasts ⟨2, ![A, B]⟩) : FVec Ideal ⟨2, ![A, B]⟩ .f32 :=
  addf (matmul D none
      (truncf .bf16 (mulf (shapeCast ⟨2, ![A, K]⟩ x0 c0) (broadcastTo ⟨2, ![A, K]⟩ (shapeCast ⟨2, ![A, 1]⟩ x3 c3) b3)) hbits)
      (truncf .bf16 (shapeCast ⟨2, ![K, B]⟩ x1 c1) hbits) (constant ⟨2, ![A, B]⟩ .f32 0x00000000#32))
    (broadcastTo ⟨2, ![A, B]⟩ (shapeCast ⟨2, ![1, B]⟩ x2 c2) b2)

/-- The tile's pre-activation at `(p, k)`. -/
theorem tilePre_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = plain2 wf)
    (x0 : FVec Ideal ⟨2, ![A, K]⟩ .f32) (x3 : FVec Ideal ⟨2, ![A, 1]⟩ .f32) (x1 : FVec Ideal ⟨2, ![K, B]⟩ .f32)
    (x2 : FVec Ideal ⟨2, ![1, B]⟩ .f32)
    (c0 : (⟨2, ![A, K]⟩ : Shape).ShapeCasts ⟨2, ![A, K]⟩) (c3 : (⟨2, ![A, 1]⟩ : Shape).ShapeCasts ⟨2, ![A, 1]⟩)
    (b3 : (⟨2, ![A, 1]⟩ : Shape).Broadcasts ⟨2, ![A, K]⟩) (hbits : FTy.bits .bf16 < FTy.bits .f32)
    (c1 : (⟨2, ![K, B]⟩ : Shape).ShapeCasts ⟨2, ![K, B]⟩) (c2 : (⟨2, ![1, B]⟩ : Shape).ShapeCasts ⟨2, ![1, B]⟩)
    (b2 : (⟨2, ![1, B]⟩ : Shape).Broadcasts ⟨2, ![A, B]⟩) (p : Fin A) (k : Fin B) :
    tilePre D x0 x3 x1 x2 c0 c3 b3 hbits c1 c2 b2 (ix2 p k)
      = (∑ j : Fin K, (x0 (ix2 p j) * x3 (ix2 p (0 : Fin 1))) * x1 (ix2 j k)) + x2 (ix2 (0 : Fin 1) k) := by
  unfold tilePre
  show matmul D none _ _ (constant ⟨2, ![A, B]⟩ .f32 0x00000000#32) (ix2 p k)
      + broadcastTo ⟨2, ![A, B]⟩ (shapeCast ⟨2, ![1, B]⟩ x2 c2) b2 (ix2 p k) = _
  rw [matmul_plain_apply D wf hD _ _ p k, broadcastTo_1b_ab_apply _ b2 p k, shapeCast_self x2 c2]
  refine congrArg (· + x2 (ix2 (0 : Fin 1) k)) (Finset.sum_congr rfl fun j _ => ?_)
  show (shapeCast ⟨2, ![A, K]⟩ x0 c0 (ix2 p j) * broadcastTo ⟨2, ![A, K]⟩ (shapeCast ⟨2, ![A, 1]⟩ x3 c3) b3 (ix2 p j))
      * shapeCast ⟨2, ![K, B]⟩ x1 c1 (ix2 j k) = _
  rw [shapeCast_self x0 c0, shapeCast_self x1 c1, broadcastTo_a1_ab_apply _ b3 p j, shapeCast_self x3 c3]

/-- The whole tile at `(p, q)`: the log-softmax of row `p` of the pre-activation. -/
theorem scaledHead_tile_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = plain2 wf)
    (x0 : FVec Ideal ⟨2, ![A, K]⟩ .f32) (x3 : FVec Ideal ⟨2, ![A, 1]⟩ .f32) (x1 : FVec Ideal ⟨2, ![K, B]⟩ .f32)
    (x2 : FVec Ideal ⟨2, ![1, B]⟩ .f32)
    (c0 : (⟨2, ![A, K]⟩ : Shape).ShapeCasts ⟨2, ![A, K]⟩) (c3 : (⟨2, ![A, 1]⟩ : Shape).ShapeCasts ⟨2, ![A, 1]⟩)
    (b3 : (⟨2, ![A, 1]⟩ : Shape).Broadcasts ⟨2, ![A, K]⟩) (hbits : FTy.bits .bf16 < FTy.bits .f32)
    (c1 : (⟨2, ![K, B]⟩ : Shape).ShapeCasts ⟨2, ![K, B]⟩) (c2 : (⟨2, ![1, B]⟩ : Shape).ShapeCasts ⟨2, ![1, B]⟩)
    (b2 : (⟨2, ![1, B]⟩ : Shape).Broadcasts ⟨2, ![A, B]⟩)
    (hred : (⟨2, ![A, B]⟩ : Shape).Reduces [1] ⟨1, ![A]⟩) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf (tilePre D x0 x3 x1 x2 c0 c3 b3 hbits c1 c2 b2)
          (broadcastTo ⟨2, ![A, B]⟩ (shapeCast ⟨2, ![A, 1]⟩ (multiReduction .maximumf [1] ⟨1, ![A]⟩
            (tilePre D x0 x3 x1 x2 c0 c3 b3 hbits c1 c2 b2) 0xFF800000#32 hred hφ hmax) hc) hb))
        (broadcastTo ⟨2, ![A, B]⟩ (log (shapeCast ⟨2, ![A, 1]⟩ (multiReduction .add [1] ⟨1, ![A]⟩
          (exp (subf (tilePre D x0 x3 x1 x2 c0 c3 b3 hbits c1 c2 b2)
            (broadcastTo ⟨2, ![A, B]⟩ (shapeCast ⟨2, ![A, 1]⟩ (multiReduction .maximumf [1] ⟨1, ![A]⟩
              (tilePre D x0 x3 x1 x2 c0 c3 b3 hbits c1 c2 b2) 0xFF800000#32 hred hφ hmax) hc) hb)))
          0x00000000#32 hred hφ hadd) hc)) hb) (ix2 p q)
      = lsmRow (fun k => (∑ j : Fin K, (x0 (ix2 p j) * x3 (ix2 p (0 : Fin 1))) * x1 (ix2 j k)) + x2 (ix2 (0 : Fin 1) k)) q := by
  refine (Cert.Sage.tile_lsm (tilePre D x0 x3 x1 x2 c0 c3 b3 hbits c1 c2 b2) hred hφ hmax hadd hc hb p q).trans ?_
  simp only [tilePre_apply D wf hD]
  rfl

/-! ## Whole arrays on the host -/

/-- The host's pre-activation: the product plus the bias vector repeated along the rows. -/
def hostPre (D : DotDims ⟨2, ![N, K]⟩ ⟨2, ![K, B]⟩ ⟨2, ![N, B]⟩)
    (H : FVec Ideal ⟨2, ![N, K]⟩ .f32) (Wt : FVec Ideal ⟨2, ![K, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1]) : FVec Ideal ⟨2, ![N, B]⟩ .f32 :=
  addf (Host.dotGeneral D none H Wt) (broadcastInDim ⟨2, ![N, B]⟩ ![0, 1] h2 (broadcastInDim ⟨2, ![1, B]⟩ ![1] h1 b))

/-- The host's pre-activation at `(p, k)`. -/
theorem hostPre_apply (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = plain2 wf)
    (H : FVec Ideal ⟨2, ![N, K]⟩ .f32) (Wt : FVec Ideal ⟨2, ![K, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1]) (p : Fin N) (k : Fin B) :
    hostPre D H Wt b h1 h2 (ix2 p k) = (∑ j : Fin K, H (ix2 p j) * Wt (ix2 j k)) + b (ix1 k) := by
  unfold hostPre
  show Host.dotGeneral D none H Wt (ix2 p k)
      + broadcastInDim ⟨2, ![N, B]⟩ ![0, 1] h2 (broadcastInDim ⟨2, ![1, B]⟩ ![1] h1 b) (ix2 p k) = _
  rw [dotGeneral_plain_apply D wf hD H Wt p k, bcast_vec_rows_apply b h1 h2 p k]

/-- A vector kept as a column and repeated along the row reads, at `(p, c)`, the vector at `p`. -/
theorem keep_col_apply (v : FVec Ideal ⟨1, ![N]⟩ .f32)
    (cN : (⟨1, ![N]⟩ : Shape).BroadcastsInDim ⟨2, ![N, 1]⟩ ![0])
    (rN : (⟨2, ![N, 1]⟩ : Shape).BroadcastsInDim ⟨2, ![N, B]⟩ ![0, 1]) (p : Fin N) (c : Fin B) :
    broadcastInDim ⟨2, ![N, B]⟩ ![0, 1] rN (broadcastInDim ⟨2, ![N, 1]⟩ ![0] cN v) (ix2 p c) = v (ix1 p) := by
  rw [bcast_col_rows_apply _ rN p c, bcast_col_apply v cN p 0]

/-- An array minus a per-row value kept as a column and repeated along the row, at `(p, c)`. -/
theorem host_shift_apply (z : FVec Ideal ⟨2, ![N, B]⟩ .f32) (mx : FVec Ideal ⟨1, ![N]⟩ .f32)
    (cN : (⟨1, ![N]⟩ : Shape).BroadcastsInDim ⟨2, ![N, 1]⟩ ![0])
    (rN : (⟨2, ![N, 1]⟩ : Shape).BroadcastsInDim ⟨2, ![N, B]⟩ ![0, 1]) (p : Fin N) (c : Fin B) :
    subf (F := Ideal) (φ := .f32) z (broadcastInDim ⟨2, ![N, B]⟩ ![0, 1] rN (broadcastInDim ⟨2, ![N, 1]⟩ ![0] cN mx)) (ix2 p c)
      = z (ix2 p c) - mx (ix1 p) := by
  rw [subf_apply, keep_col_apply mx cN rN p c]

/-- The host's row maximum from −∞, taken once more against −∞, at row `p`: the running maximum of the row. -/
theorem host_rowTop_apply (z : FVec Ideal ⟨2, ![N, B]⟩ .f32)
    (hr' : (⟨2, ![N, B]⟩ : Shape).ReducesTo [1] ⟨1, ![N]⟩) (hu : 0 < (⟨0, ![]⟩ : Shape).numel)
    (bN : (⟨0, ![]⟩ : Shape).BroadcastsInDim ⟨1, ![N]⟩ ![]) (p : Fin N) :
    maximumf (F := Ideal) (φ := .f32) (broadcastInDim ⟨1, ![N]⟩ ![] bN (constant (F := Ideal) ⟨0, ![]⟩ .f32 0xFF800000#32))
        (Host.reduce FloatOps.maximumf z (constant (⟨0, ![]⟩ : Shape) .f32 0xFF800000#32) hr' hu) (ix1 p)
      = top (fun k => z (ix2 p k)) := by
  have hr : (⟨2, ![N, B]⟩ : Shape).Reduces [1] ⟨1, ![N]⟩ := ⟨hr'.1, Nat.one_pos, hr'.2⟩
  rw [maximumf_apply, bcast_scalar_apply bN _ (ix1 p), host_rowMax_apply hr z _ hr' hu p]
  exact Cert.Sage.max_fold_start _ _ _

/-- The second half of the host's log-softmax, for any shifted array `sh`: at `(p, q)`, the entry minus the logarithm of the
    row's sum of exponentials. -/
theorem host_logsum_apply (sh : FVec Ideal ⟨2, ![N, B]⟩ .f32)
    (hr' : (⟨2, ![N, B]⟩ : Shape).ReducesTo [1] ⟨1, ![N]⟩) (hu : 0 < (⟨0, ![]⟩ : Shape).numel)
    (cN : (⟨1, ![N]⟩ : Shape).BroadcastsInDim ⟨2, ![N, 1]⟩ ![0])
    (rN : (⟨2, ![N, 1]⟩ : Shape).BroadcastsInDim ⟨2, ![N, B]⟩ ![0, 1]) (p : Fin N) (q : Fin B) :
    subf (F := Ideal) (φ := .f32) sh (broadcastInDim ⟨2, ![N, B]⟩ ![0, 1] rN (Host.log (broadcastInDim ⟨2, ![N, 1]⟩ ![0] cN
        (Host.reduceAdd (Host.exp sh) (constant (⟨0, ![]⟩ : Shape) .f32 0x00000000#32) hr' hu)))) (ix2 p q)
      = sh (ix2 p q) - Ideal.log (∑ k : Fin B, Ideal.exp (sh (ix2 p k))) := by
  have hr : (⟨2, ![N, B]⟩ : Shape).Reduces [1] ⟨1, ![N]⟩ := ⟨hr'.1, Nat.one_pos, hr'.2⟩
  rw [subf_apply, bcast_col_rows_apply _ rN p q, host_log_apply, bcast_col_apply _ cN p 0,
    host_rowSum_apply hr (Host.exp sh) hr' hu p]
  rfl

/-- The host's log-softmax of a whole array `z`, at `(p, q)`: the log-softmax of row `p`. -/
theorem host_lsm_apply (z : FVec Ideal ⟨2, ![N, B]⟩ .f32)
    (hr' : (⟨2, ![N, B]⟩ : Shape).ReducesTo [1] ⟨1, ![N]⟩) (hu : 0 < (⟨0, ![]⟩ : Shape).numel)
    (bN : (⟨0, ![]⟩ : Shape).BroadcastsInDim ⟨1, ![N]⟩ ![])
    (cN : (⟨1, ![N]⟩ : Shape).BroadcastsInDim ⟨2, ![N, 1]⟩ ![0])
    (rN : (⟨2, ![N, 1]⟩ : Shape).BroadcastsInDim ⟨2, ![N, B]⟩ ![0, 1]) (p : Fin N) (q : Fin B) :
    subf (F := Ideal) (φ := .f32)
        (subf (F := Ideal) (φ := .f32) z (broadcastInDim ⟨2, ![N, B]⟩ ![0, 1] rN (broadcastInDim ⟨2, ![N, 1]⟩ ![0] cN
          (maximumf (F := Ideal) (φ := .f32) (broadcastInDim ⟨1, ![N]⟩ ![] bN (constant (F := Ideal) ⟨0, ![]⟩ .f32 0xFF800000#32))
            (Host.reduce FloatOps.maximumf z (constant (⟨0, ![]⟩ : Shape) .f32 0xFF800000#32) hr' hu)))))
        (broadcastInDim ⟨2, ![N, B]⟩ ![0, 1] rN (Host.log (broadcastInDim ⟨2, ![N, 1]⟩ ![0] cN
          (Host.reduceAdd (Host.exp (subf (F := Ideal) (φ := .f32) z (broadcastInDim ⟨2, ![N, B]⟩ ![0, 1] rN
              (broadcastInDim ⟨2, ![N, 1]⟩ ![0] cN
                (maximumf (F := Ideal) (φ := .f32) (broadcastInDim ⟨1, ![N]⟩ ![] bN (constant (F := Ideal) ⟨0, ![]⟩ .f32 0xFF800000#32))
                  (Host.reduce FloatOps.maximumf z (constant (⟨0, ![]⟩ : Shape) .f32 0xFF800000#32) hr' hu))))))
            (constant (⟨0, ![]⟩ : Shape) .f32 0x00000000#32) hr' hu)))) (ix2 p q)
      = lsmRow (fun k => z (ix2 p k)) q := by
  unfold lsmRow
  rw [host_logsum_apply _ hr' hu cN rN p q, host_shift_apply z _ cN rN p q, host_rowTop_apply z hr' hu bN p]
  refine congrArg (fun s => _ - Ideal.log s) (Finset.sum_congr rfl fun k _ => ?_)
  rw [host_shift_apply z _ cN rN p k, host_rowTop_apply z hr' hu bN p]

end Cert.Lib

end
-- ==== Proof.Spec.lean ====
/-
  The function both programs compute, as one function of the four arguments.

  The arguments are node features `x : [100000, 128]`, weights `W : [128, 128]`, a bias `b : [128]` and `ei : [2, 800000]`
  edge words. Both programs extend the edges by one self loop per node (row 0 of `ei` followed by 0 … 99999 is the 900000
  source words, row 1 followed by the same the target words), count for every node the updates that land on it
  (`deg`), and set `dinv = where(deg > 0, rsqrt deg, 0)`. Indices are used as jax uses them: a gather reads its word
  after the normalisation `w < 0 ? w + 100000 : w`, signed and clamped into the array; the accumulating scatter reads its
  word signed, unnormalised, and drops an update whose word names no row.

  One propagation step is, per node, `dinv[p] · Σ_{e lands on p} (dinv · H)[src e]` (`scale`, then `agg`, then `scale`) and,
  per edge, `Σ_{e lands on p} (dinv[src e] · dinv[tgt e]) · H[src e]` (`aggW`). `kGraph` is two steps per node with the last
  factor left off; `rGraph` is two steps per edge; `graph_eq` says `kGraph · dinv = rGraph` entry by entry, for ARBITRARY
  word arrays and arbitrary extended-real features. The result `G` is the row-wise log-softmax of `rGraph · Wᵀ + b`.
-/
import proofs.«173505_j47330539602646_2_alg».proof.Proof.LibSymmetricHops
import proofs.«173505_j47330539602646_2_alg».proof.Proof.LibScaledHead

noncomputable section

open scoped BigOperators

namespace Cert.Spec

open Idealize.ShloMosaic Idealize.ShloMosaic.ValueIdx Cert.Lib

abbrev S0 : Shape := ⟨0, ![]⟩
abbrev SN : Shape := ⟨1, ![100000]⟩
abbrev SN1 : Shape := ⟨2, ![100000, 1]⟩
abbrev SNC : Shape := ⟨2, ![100000, 128]⟩
abbrev SE : Shape := ⟨1, ![900000]⟩
abbrev SE1 : Shape := ⟨2, ![900000, 1]⟩
abbrev SEC : Shape := ⟨2, ![900000, 128]⟩
abbrev SM : Shape := ⟨1, ![800000]⟩
abbrev S1M : Shape := ⟨2, ![1, 800000]⟩
abbrev S2M : Shape := ⟨2, ![2, 800000]⟩
abbrev SCC : Shape := ⟨2, ![128, 128]⟩
abbrev SC : Shape := ⟨1, ![128]⟩

/-- The side conditions of the layout operations, gathers and scatters below (facts about literal shapes). -/
structure Side : Prop where
  sl0 : S2M.Slices ![0, 0] S1M
  sl1 : S2M.Slices ![1, 0] S1M
  cst : S1M.ShapeCasts SM
  cat : Shape.Concatenates [SM, SN] SE 0
  bE : S0.BroadcastsInDim SE ![]
  bN : S0.BroadcastsInDim SN ![]
  bNC : S0.BroadcastsInDim SNC ![]
  cE : SE.BroadcastsInDim SE1 ![0]
  cN : SN.BroadcastsInDim SN1 ![0]
  rN : SN1.BroadcastsInDim SNC ![0, 1]
  rE : SE1.BroadcastsInDim SEC ![0, 1]
  tr : SCC.Transposes [1, 0] SCC
  wfK : ScatterDims.WF SN SE1 SE [] [0] [0] 1
  wfS : ScatterDims.WF SNC SE1 SEC [1] [0] [0] 1
  wfR : GatherDims.WF SNC SE1 SEC [1] [0] [] [0] [] 1 ![1, 128]
  wfE : GatherDims.WF SN SE1 SE [] [0] [] [0] [] 1 ![1]

variable (sd : Side)

/-! ## The index words -/

/-- The source words: row 0 of the edge array, then one self loop per node. -/
def rowW (ei : IVec S2M 32) : IVec SE 32 :=
  concatenate SE 0 [⟨SM, shapeCast SM (extractStridedSlice S1M ![0, 0] ei sd.sl0) sd.cst⟩, ⟨SN, iotaInDim SN 32 0⟩] sd.cat

/-- The target words: row 1 of the edge array, then one self loop per node. -/
def colW (ei : IVec S2M 32) : IVec SE 32 :=
  concatenate SE 0 [⟨SM, shapeCast SM (extractStridedSlice S1M ![1, 0] ei sd.sl1) sd.cst⟩, ⟨SN, iotaInDim SN 32 0⟩] sd.cat

def zeroE : IVec SE 32 := broadcastInDim SE ![] sd.bE (constantI S0 32 0#32)
def nE : IVec SE 32 := broadcastInDim SE ![] sd.bE (constantI S0 32 100000#32)

/-- The normalisation a gather's words go through: `w < 0 ? w + 100000 : w`. -/
def norm (w : IVec SE 32) : IVec SE 32 := select (cmpi .slt w (zeroE sd)) (addi w (nE sd)) w

/-- A vector of words as the one-column array a gather or a scatter reads. -/
def col (w : IVec SE 32) : IVec SE1 32 := broadcastInDim SE1 ![0] sd.cE w

/-! ## Degrees -/

def zeroN : FVec Ideal SN .f32 := broadcastInDim SN ![] sd.bN (constant S0 .f32 0x00000000#32)
def onesE : FVec Ideal SE .f32 := broadcastInDim SE ![] sd.bE (constant S0 .f32 0x3F800000#32)
def zeroNC : FVec Ideal SNC .f32 := broadcastInDim SNC ![] sd.bNC (constant S0 .f32 0x00000000#32)

/-- For every node, the number of updates whose target word names it. -/
def deg (cw : IVec SE 32) : FVec Ideal SN .f32 :=
  Host.scatterAdd (addEntriesDims 100000 900000 sd.wfK) (zeroN sd) (col sd cw) (onesE sd)

/-- `where(deg > 0, rsqrt deg, 0)`. -/
def dinv (cw : IVec SE 32) : FVec Ideal SN .f32 :=
  select (cmpf .ogt (deg sd cw) (zeroN sd)) (Host.rsqrt (deg sd cw)) (zeroN sd)

/-! ## One step, per node and per edge -/

/-- Row `p` times `dinv[p]`. -/
def scale (cw : IVec SE 32) (X : FVec Ideal SNC .f32) : FVec Ideal SNC .f32 :=
  mulf (broadcastInDim SNC ![0, 1] sd.rN (broadcastInDim SN1 ![0] sd.cN (dinv sd cw))) X

/-- The gathered source rows added into their targets. -/
def agg (rw cw : IVec SE 32) (Y : FVec Ideal SNC .f32) : FVec Ideal SNC .f32 :=
  Host.scatterAdd (addRowsDims 100000 900000 128 sd.wfS) (zeroNC sd) (col sd cw)
    (Host.gather (rowsDims 100000 900000 128 sd.wfR) Y (col sd (norm sd rw)))

/-- The weight of an edge: `dinv[src] · dinv[tgt]`. -/
def weight (rw cw : IVec SE 32) : FVec Ideal SE .f32 :=
  mulf (Host.gather (entriesDims 100000 900000 sd.wfE) (dinv sd cw) (col sd (norm sd rw)))
    (Host.gather (entriesDims 100000 900000 sd.wfE) (dinv sd cw) (col sd (norm sd cw)))

/-- The gathered source rows, each times its edge's weight, added into their targets. -/
def aggW (rw cw : IVec SE 32) (H : FVec Ideal SNC .f32) : FVec Ideal SNC .f32 :=
  Host.scatterAdd (addRowsDims 100000 900000 128 sd.wfS) (zeroNC sd) (col sd cw)
    (mulf (broadcastInDim SEC ![0, 1] sd.rE (broadcastInDim SE1 ![0] sd.cE (weight sd rw cw)))
      (Host.gather (rowsDims 100000 900000 128 sd.wfR) H (col sd (norm sd rw))))

/-- Two steps per node, the last factor `dinv[p]` left to the reader of the result. -/
def kGraph (rw cw : IVec SE 32) (x : FVec Ideal SNC .f32) : FVec Ideal SNC .f32 :=
  agg sd rw cw (scale sd cw (scale sd cw (agg sd rw cw (scale sd cw x))))

/-- Two steps per edge. -/
def rGraph (rw cw : IVec SE 32) (x : FVec Ideal SNC .f32) : FVec Ideal SNC .f32 :=
  aggW sd rw cw (aggW sd rw cw x)

/-! ## The facts the steps need -/

theorem zeroN_apply (i : SN.Idx) : zeroN sd i = 0 := (bcast_scalar_apply sd.bN _ i).trans Ideal.ofBits_zero_f32
theorem zeroNC_apply (i : SNC.Idx) : zeroNC sd i = 0 := (bcast_scalar_apply sd.bNC _ i).trans Ideal.ofBits_zero_f32
theorem onesE_apply (j : SE.Idx) : onesE sd j = 1 := (bcast_scalar_apply sd.bE _ j).trans ofBits_one_f32

theorem col_apply (w : IVec SE 32) (e : Fin 900000) (u : Fin 1) : col sd w (ix2 e u) = w (ix1 e) :=
  bcast_col_apply w sd.cE e u

theorem zeroE_apply (j : SE.Idx) : zeroE sd j = 0#32 := by
  unfold zeroE
  exact (broadcastInDim_apply ![] sd.bE (constantI S0 32 0#32) j ix0 fun a => a.elim0).trans rfl

/-- `dinv` is a nonnegative real at every node. -/
theorem dinv_real (cw : IVec SE 32) (p : Fin 100000) : ∃ r : ℝ, 0 ≤ r ∧ dinv sd cw (ix1 p) = (r : EReal) :=
  guarded_rsqrt_count_real (addEntriesDims 100000 900000 sd.wfK) (zeroN sd) (zeroN_apply sd) (onesE sd) (onesE_apply sd)
    (col sd cw) (zeroN sd) (zeroN_apply sd) (ix1 p)

/-- Where the scatter's target word names a node, the gather through the normalised target word reads that node. -/
theorem target_row (cw : IVec SE 32) (e : Fin 900000) (i : Fin 100000)
    (h : (col sd cw (ix2 e 0)).toInt = (i.val : Int)) :
    clampRow 100000 (by decide) (col sd (norm sd cw) (ix2 e 0)) = i := by
  rw [col_apply] at h
  rw [col_apply]
  have hn : norm sd cw (ix1 e) = cw (ix1 e) :=
    select_norm_apply cw (nE sd) (zeroE sd) (ix1 e) (zeroE_apply sd _) (by rw [h]; exact Int.natCast_nonneg _)
  rw [hn]
  exact clampRow_of_toInt (by decide) _ i h

/-! ## The two arrangements agree -/

theorem graph_eq (rw cw : IVec SE 32) (x : FVec Ideal SNC .f32) (p : Fin 100000) (q : Fin 128) :
    kGraph sd rw cw x (ix2 p q) * dinv sd cw (ix1 p) = rGraph sd rw cw x (ix2 p q) := by
  show Host.scatterAdd (F := Ideal) (φ := .f32) (addRowsDims 100000 900000 128 sd.wfS) (zeroNC sd) (col sd cw)
        (Host.gather (rowsDims 100000 900000 128 sd.wfR)
          (scale sd cw (scale sd cw (agg sd rw cw (scale sd cw x)))) (col sd (norm sd rw))) (ix2 p q) * dinv sd cw (ix1 p)
      = Host.scatterAdd (F := Ideal) (φ := .f32) (addRowsDims 100000 900000 128 sd.wfS) (zeroNC sd) (col sd cw)
        (mulf (F := Ideal) (φ := .f32) (broadcastInDim SEC ![0, 1] sd.rE (broadcastInDim SE1 ![0] sd.cE (weight sd rw cw)))
          (Host.gather (rowsDims 100000 900000 128 sd.wfR) (aggW sd rw cw x) (col sd (norm sd rw)))) (ix2 p q)
  have hN : 0 < 100000 := by decide
  have hY1 : ∀ (p : Fin 100000) (q : Fin 128), scale sd cw x (ix2 p q) = dinv sd cw (ix1 p) * x (ix2 p q) :=
    fun p q => scale_rows_apply (dinv sd cw) sd.cN sd.rN x p q
  have hH1 : ∀ (p : Fin 100000) (q : Fin 128), scale sd cw (agg sd rw cw (scale sd cw x)) (ix2 p q)
      = dinv sd cw (ix1 p) * Host.scatterAdd (F := Ideal) (φ := .f32) (addRowsDims 100000 900000 128 sd.wfS) (zeroNC sd) (col sd cw)
          (Host.gather (rowsDims 100000 900000 128 sd.wfR) (scale sd cw x) (col sd (norm sd rw))) (ix2 p q) :=
    fun p q => scale_rows_apply (dinv sd cw) sd.cN sd.rN (agg sd rw cw (scale sd cw x)) p q
  have hY2 : ∀ (p : Fin 100000) (q : Fin 128), scale sd cw (scale sd cw (agg sd rw cw (scale sd cw x))) (ix2 p q)
      = dinv sd cw (ix1 p) * scale sd cw (agg sd rw cw (scale sd cw x)) (ix2 p q) :=
    fun p q => scale_rows_apply (dinv sd cw) sd.cN sd.rN (scale sd cw (agg sd rw cw (scale sd cw x))) p q
  have hU1 : ∀ (e : Fin 900000) (q : Fin 128),
      mulf (F := Ideal) (φ := .f32) (broadcastInDim SEC ![0, 1] sd.rE (broadcastInDim SE1 ![0] sd.cE (weight sd rw cw)))
          (Host.gather (rowsDims 100000 900000 128 sd.wfR) x (col sd (norm sd rw))) (ix2 e q)
        = (Host.gather (entriesDims 100000 900000 sd.wfE) (dinv sd cw) (col sd (norm sd rw)) (ix1 e)
            * Host.gather (entriesDims 100000 900000 sd.wfE) (dinv sd cw) (col sd (norm sd cw)) (ix1 e))
          * Host.gather (rowsDims 100000 900000 128 sd.wfR) x (col sd (norm sd rw)) (ix2 e q) :=
    fun e q => scale_edges_apply _ _ sd.cE sd.rE _ e q
  have hU2 : ∀ (e : Fin 900000) (q : Fin 128),
      mulf (F := Ideal) (φ := .f32) (broadcastInDim SEC ![0, 1] sd.rE (broadcastInDim SE1 ![0] sd.cE (weight sd rw cw)))
          (Host.gather (rowsDims 100000 900000 128 sd.wfR) (aggW sd rw cw x) (col sd (norm sd rw))) (ix2 e q)
        = (Host.gather (entriesDims 100000 900000 sd.wfE) (dinv sd cw) (col sd (norm sd rw)) (ix1 e)
            * Host.gather (entriesDims 100000 900000 sd.wfE) (dinv sd cw) (col sd (norm sd cw)) (ix1 e))
          * Host.gather (rowsDims 100000 900000 128 sd.wfR)
              (Host.scatterAdd (F := Ideal) (φ := .f32) (addRowsDims 100000 900000 128 sd.wfS) (zeroNC sd) (col sd cw)
                (mulf (F := Ideal) (φ := .f32) (broadcastInDim SEC ![0, 1] sd.rE (broadcastInDim SE1 ![0] sd.cE (weight sd rw cw)))
                  (Host.gather (rowsDims 100000 900000 128 sd.wfR) x (col sd (norm sd rw))))) (col sd (norm sd rw)) (ix2 e q) :=
    fun e q => scale_edges_apply _ _ sd.cE sd.rE _ e q
  exact two_hops hN sd.wfR sd.wfE sd.wfS x (dinv sd cw) (dinv_real sd cw) (zeroNC sd) (zeroNC_apply sd)
    (col sd cw) (col sd (norm sd rw)) (col sd (norm sd cw)) (target_row sd cw)
    (scale sd cw x) (scale sd cw (agg sd rw cw (scale sd cw x))) (scale sd cw (scale sd cw (agg sd rw cw (scale sd cw x))))
    hY1 hH1 hY2 _ _ hU1 hU2 p q

/-! ## The result -/

/-- The result, as one function of the arguments: the row-wise log-softmax of `rGraph · Wᵀ + b`. -/
def G (x : FVec Ideal SNC .f32) (W : FVec Ideal SCC .f32) (b : FVec Ideal SC .f32) (ei : IVec S2M 32) : FVec Ideal SNC .f32 :=
  fun i => lsmRow (fun k : Fin 128 =>
      (∑ j : Fin 128, rGraph sd (rowW sd ei) (colW sd ei) x (ix2 (⟨(i 0).val, idx2_lt0 i⟩ : Fin 100000) j)
        * transpose SCC [1, 0] W sd.tr (ix2 j k)) + b (ix1 k))
    (⟨(i 1).val, idx2_lt1 i⟩ : Fin 128)

theorem G_ix2 (x : FVec Ideal SNC .f32) (W : FVec Ideal SCC .f32) (b : FVec Ideal SC .f32) (ei : IVec S2M 32)
    (p : Fin 100000) (q : Fin 128) :
    G sd x W b ei (ix2 p q) = lsmRow (fun k : Fin 128 =>
      (∑ j : Fin 128, rGraph sd (rowW sd ei) (colW sd ei) x (ix2 p j) * transpose SCC [1, 0] W sd.tr (ix2 j k)) + b (ix1 k)) q :=
  rfl

/-- `G` at `(r, q)` from any row `f` of the per-node propagation, factor `d`, weights `w` and bias `bb` that agree with `kGraph`,
    `dinv`, `Wᵀ` and `b` at row `r`: the per-node arrangement times its last factor is the per-edge one (`graph_eq`), under
    the sum and the log-softmax. What a tile of the kernel computes has this form. -/
theorem G_of_row (x : FVec Ideal SNC .f32) (W : FVec Ideal SCC .f32) (b : FVec Ideal SC .f32) (ei : IVec S2M 32)
    (r : Fin 100000) (q : Fin 128) (f : Fin 128 → EReal) (d : EReal) (w : Fin 128 → Fin 128 → EReal) (bb : Fin 128 → EReal)
    (hf : ∀ j, f j = kGraph sd (rowW sd ei) (colW sd ei) x (ix2 r j))
    (hd : d = dinv sd (colW sd ei) (ix1 r))
    (hw : ∀ j k, w j k = transpose SCC [1, 0] W sd.tr (ix2 j k))
    (hb : ∀ k, bb k = b (ix1 k)) :
    lsmRow (fun k : Fin 128 => (∑ j : Fin 128, (f j * d) * w j k) + bb k) q = G sd x W b ei (ix2 r q) := by
  rw [G_ix2]
  refine congrArg (fun z => lsmRow z q) (funext fun k => ?_)
  have hs : (∑ j : Fin 128, (f j * d) * w j k)
      = ∑ j : Fin 128, rGraph sd (rowW sd ei) (colW sd ei) x (ix2 r j) * transpose SCC [1, 0] W sd.tr (ix2 j k) :=
    Finset.sum_congr rfl fun j _ => by rw [hf j, hd, hw j k, graph_eq]
  rw [hs, hb k]

end Cert.Spec

end
-- ==== Proof.KernelHost.lean ====
/-
  What the kernel's one region finds in its four input arrays, as functions of @main's arguments.

  @main runs its host operations before the region: it builds the source and target words, the degrees and `dinv`, does two
  propagation steps per node leaving the last factor off (`Spec.kGraph`), transposes `W`, recasts `b` as a one-row matrix and
  `dinv` as a one-column matrix. The region's windows stage exactly these four arrays. Each equation below is the composed
  term of the host operations that write the array, read back from the fold over the operation list; the specification
  spells the same operations, so the two sides differ only in the names of the side conditions they cite.
-/
import proofs.«173505_j47330539602646_2_alg».proof.Proof.Gen.KernelIdeal.Frame
import proofs.«173505_j47330539602646_2_alg».proof.Proof.Spec
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

variable (sd : Cert.Spec.Side) (m : (ℓ : Loc nD τ sig) → Buf (Elt Ideal) ℓ) (c : Dev nD)

/-! ## The typed references of the outlined `where`

  jax outlines `jnp.where` as a function; its three operands and its result are held in buffers whose type equals the
  value's, and contents move between the two types by transport along that equation. At these four literal buffers the
  equation is reflexive, so each transport is the identity. -/

omit sd m c in
theorem toBuf_v15 (v : (⟨S100000, .f32⟩ : BufTy).Contents (Elt Ideal)) :
    (TRef.of (T := ⟨S100000, .f32⟩) main_v15).toBuf v = v := rfl
omit sd m c in
theorem ofBuf_v12 (v : (⟨S100000, .i1⟩ : BufTy).Contents (Elt Ideal)) :
    (TRef.of (T := ⟨S100000, .i1⟩) main_v12).ofBuf v = v := rfl
omit sd m c in
theorem ofBuf_v13 (v : (⟨S100000, .f32⟩ : BufTy).Contents (Elt Ideal)) :
    (TRef.of (T := ⟨S100000, .f32⟩) main_v13).ofBuf v = v := rfl
omit sd m c in
theorem ofBuf_v14 (v : (⟨S100000, .f32⟩ : BufTy).Contents (Elt Ideal)) :
    (TRef.of (T := ⟨S100000, .f32⟩) main_v14).ofBuf v = v := rfl

/-- Window 1's array: the weights transposed. -/
theorem weights_eq :
    (V m c main_v45 : S128x128.Idx → EReal)
      = transpose S128x128 [1, 0] (m ((c : Thread nD τ).loc main_arg1)) sd.tr := by
  dsimp only [Gen.V]
  simp only [hostOps0, hostOps0_1, hostOps0_2, List.flatten_cons, List.flatten_nil, List.append_nil, List.cons_append,
    List.nil_append]
  after_results_simp

/-- Window 2's array: the bias recast as a one-row matrix. -/
theorem bias_eq :
    (V m c main_v46 : S1x128.Idx → EReal)
      = shapeCast S1x128 (m ((c : Thread nD τ).loc main_arg2)) Facts₀.shapeCasts_S128_S1x128 := by
  dsimp only [Gen.V]
  simp only [hostOps0, hostOps0_1, hostOps0_2, List.flatten_cons, List.flatten_nil, List.append_nil, List.cons_append,
    List.nil_append]
  after_results_simp
  rfl

/-- Window 3's array: `dinv` recast as a one-column matrix. -/
theorem factor_eq :
    (V m c main_v47 : S100000x1.Idx → EReal)
      = shapeCast S100000x1 (Cert.Spec.dinv sd (Cert.Spec.colW sd (m ((c : Thread nD τ).loc main_arg3))))
          Facts₀.shapeCasts_S100000_S100000x1 := by
  dsimp only [Gen.V]
  simp only [hostOps0, hostOps0_1, hostOps0_2, List.flatten_cons, List.flatten_nil, List.append_nil, List.cons_append,
    List.nil_append]
  after_results_simp
  rw [toBuf_v15, ofBuf_v12, ofBuf_v13, ofBuf_v14]
  rfl

/-- Window 0's array: two propagation steps per node, the last factor left off. -/
theorem features_eq :
    (V m c main_v44 : S100000x128.Idx → EReal)
      = Cert.Spec.kGraph sd (Cert.Spec.rowW sd (m ((c : Thread nD τ).loc main_arg3)))
          (Cert.Spec.colW sd (m ((c : Thread nD τ).loc main_arg3))) (m ((c : Thread nD τ).loc main_arg0)) := by
  dsimp only [Gen.V]
  simp only [hostOps0, hostOps0_1, hostOps0_2, List.flatten_cons, List.flatten_nil, List.append_nil, List.cons_append,
    List.nil_append]
  after_results_simp
  rw [toBuf_v15, ofBuf_v12, ofBuf_v13, ofBuf_v14]
  rfl

end Cert.KernelIdeal.HostValue

end
-- ==== Proof.KernelValue.lean ====
/-
  The kernel's result array, as one function of @main's arguments.

  The region runs its body at 20 grid points. At point `t` the body sees rows `5000·t … 5000·t + 4999` of the propagated
  features (window 0) and of the column of factors `dinv` (window 3), the whole transposed weight matrix (window 1) and the
  whole bias row (window 2), and stores one `[5000, 128]` block, which is written back to rows `5000·t …` of the result.
  Entry `(p, q)` of the stored block is the log-softmax of row `p` of `(features · dinv) · Wᵀ + b` (`payload_apply`); only row
  `p` of the two row-blocks enters, so it is the specification's `G` at row `5000·t + p`, once the per-node arrangement of
  the two propagation steps is exchanged for the per-edge one (`Spec.graph_eq`). The 20 blocks tile the result: row `r` lies
  in the block of point `r / 5000`.
-/
import proofs.«173505_j47330539602646_2_alg».proof.Proof.Gen.KernelIdeal.Value
import proofs.«173505_j47330539602646_2_alg».proof.Proof.KernelHost

set_option maxRecDepth 16384

noncomputable section

open scoped BigOperators

namespace Cert.KernelIdeal.TileValue

open Cert.KernelIdeal Cert.KernelIdeal.Gen Idealize.ShloMosaic Idealize.ShloMosaic.TcCoe Idealize.SL.Sem
open Idealize.ShloMosaic.ValueIdx Cert.Lib
open Idealize.ShloMosaic.Pipeline (Dat)

/-! ## The body at an entry -/

/-- Entry `(p, q)` of the block the body stores: the log-softmax of row `p` of the scaled features times the weights plus
    the bias row. -/
theorem payload_apply (x0 : Vec Ideal S5000x128 .f32) (x3 : Vec Ideal S5000x1 .f32) (x1 : Vec Ideal S128x128 .f32)
    (x2 : Vec Ideal S1x128 .f32) (p : Fin 5000) (q : Fin 128) :
    k0_pay1 x0 x3 x1 x2 (ix2 p q)
      = lsmRow (fun k : Fin 128 =>
          (∑ j : Fin 128, (x0 (ix2 p j) * x3 (ix2 p (0 : Fin 1))) * x1 (ix2 j k)) + x2 (ix2 (0 : Fin 1) k)) q := by
  unfold k0_pay1
  exact scaledHead_tile_apply dot_S5000x128_S128x128_S5000x128_1_0_0_1_n_n
    dot_S5000x128_S128x128_S5000x128_1_0_0_1_n_n_wf rfl x0 x3 x1 x2
    shapeCasts_S5000x128_S5000x128 shapeCasts_S5000x1_S5000x1 broadcasts_S5000x1_S5000x128 bitsLt_bf16_f32
    shapeCasts_S128x128_S128x128 shapeCasts_S1x128_S1x128 broadcasts_S1x128_S5000x128
    reduces_S5000x128_S5000 (.inl rfl) rfl rfl shapeCasts_S5000_S5000x1 broadcasts_S5000x1_S5000x128 p q

/-! ## The blocks -/

theorem hz : (![0, 0] : Fin 2 → Nat) = fun _ => 0 := funext fun a => by fin_cases a <;> rfl

/-- The printed index maps, decided over the 20 grid points: the two row-blocked inputs and the output sit at block row
    `t`, the two whole inputs at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ t.val < 20 :=
  (by decide +kernel : ∀ t : Fin grid0.N, _)

/-- Every block row of the result is some point's. -/
theorem idx_onto : ∀ q0 : Fin 20, ∃ t : Fin cfg0.N, win0_4.index t = ![q0.val, 0] :=
  (by decide +kernel : ∀ q0 : Fin 20, ∃ t : Fin grid0.N, win0_4.index t = ![q0.val, 0])

variable (sd : Cert.Spec.Side) (m : (ℓ : Loc nD τ sig) → Buf (Elt Ideal) ℓ) (c : Dev nD)

/-- Row `p` of window 0's block at point `t` is row `5000·t + p` of the features. -/
theorem features_block (t : Fin cfg0.N) (p : Fin 5000) (j : Fin 128) (r : Fin 100000) (hr : r.val = t.val * 5000 + p.val) :
    (iblk m c 0 t : S5000x128.Idx → EReal) (ix2 p j) = (V m c main_v44 : S100000x128.Idx → EReal) (ix2 r j) := by
  obtain ⟨e0, e1, -⟩ := idx_facts t
  show (V m c main_v44 : S100000x128.Idx → EReal) (((cfg0.win 0).blk t).view.emb (ix2 p j)) = _
  refine congrArg (V m c main_v44 : S100000x128.Idx → EReal) (funext fun a => Fin.ext ?_)
  match a with
  | ⟨0, _⟩ => show win0_0.index t (0 : Fin 2) * 5000 + 1 * p.val = r.val; omega
  | ⟨1, _⟩ => show win0_0.index t (1 : Fin 2) * 128 + 1 * j.val = j.val; omega

/-- Row `p` of window 3's block at point `t` is row `5000·t + p` of the column of factors. -/
theorem factor_block (t : Fin cfg0.N) (p : Fin 5000) (r : Fin 100000) (hr : r.val = t.val * 5000 + p.val) :
    (iblk m c 3 t : S5000x1.Idx → EReal) (ix2 p (0 : Fin 1)) = (V m c main_v47 : S100000x1.Idx → EReal) (ix2 r (0 : Fin 1)) := by
  obtain ⟨-, -, -, -, -, -, e0, e1, -⟩ := idx_facts t
  show (V m c main_v47 : S100000x1.Idx → EReal) (((cfg0.win 3).blk t).view.emb (ix2 p (0 : Fin 1))) = _
  refine congrArg (V m c main_v47 : S100000x1.Idx → EReal) (funext fun a => Fin.ext ?_)
  match a with
  | ⟨0, _⟩ => show win0_3.index t (0 : Fin 2) * 5000 + 1 * p.val = r.val; omega
  | ⟨1, _⟩ => show win0_3.index t (1 : Fin 2) * 1 + 1 * 0 = 0; omega

/-- Window 1's block at every point is the whole weight array. -/
theorem weights_block (t : Fin cfg0.N) (j k : Fin 128) :
    (iblk m c 1 t : S128x128.Idx → EReal) (ix2 j k) = (V m c main_v45 : S128x128.Idx → EReal) (ix2 j k) := by
  obtain ⟨-, -, e0, e1, -⟩ := idx_facts t
  show (V m c main_v45 : S128x128.Idx → EReal) (((cfg0.win 1).blk t).view.emb (ix2 j k)) = _
  refine congrArg (V m c main_v45 : S128x128.Idx → EReal) (funext fun a => Fin.ext ?_)
  match a with
  | ⟨0, _⟩ => show win0_1.index t (0 : Fin 2) * 128 + 1 * j.val = j.val; omega
  | ⟨1, _⟩ => show win0_1.index t (1 : Fin 2) * 128 + 1 * k.val = k.val; omega

/-- Window 2's block at every point is the whole bias row. -/
theorem bias_block (t : Fin cfg0.N) (k : Fin 128) :
    (iblk m c 2 t : S1x128.Idx → EReal) (ix2 (0 : Fin 1) k) = (V m c main_v46 : S1x128.Idx → EReal) (ix2 (0 : Fin 1) k) := by
  obtain ⟨-, -, -, -, e0, e1, -⟩ := idx_facts t
  show (V m c main_v46 : S1x128.Idx → EReal) (((cfg0.win 2).blk t).view.emb (ix2 (0 : Fin 1) k)) = _
  refine congrArg (V m c main_v46 : S1x128.Idx → EReal) (funext fun a => Fin.ext ?_)
  match a with
  | ⟨0, _⟩ => show win0_2.index t (0 : Fin 2) * 1 + 1 * 0 = 0; omega
  | ⟨1, _⟩ => show win0_2.index t (1 : Fin 2) * 128 + 1 * k.val = k.val; omega

/-! ## What a point writes back -/

/-- WHAT POINT `t` WRITES BACK is block `t` of the specification's `G` of the arguments. -/
theorem flushed_eq (t : Fin cfg0.N) :
    (dats m 0 c).flushed 4 t = ((cfg0.win 4).blk t).view.read (Elt Ideal)
      (Cert.Spec.G sd (m ((c : Thread nD τ).loc main_arg0)) (m ((c : Thread nD τ).loc main_arg1))
        (m ((c : Thread nD τ).loc main_arg2)) (m ((c : Thread nD τ).loc main_arg3))) := by
  show (cfg0.win 4).cut (grid0.coords t) ((dats m 0 c).after 4 t) = _
  rw [after0_4]
  unfold out0_4
  rw [View.canon_unit_zero hz]
  simp only [View.ld_unit_zero (S := S5000x128) hz, View.ld_unit_zero (S := S5000x1) hz,
    View.ld_unit_zero (S := S128x128) hz, View.ld_unit_zero (S := S1x128) hz]
  obtain ⟨-, -, -, -, -, -, -, -, e0, e1, ht⟩ := idx_facts t
  funext y
  obtain ⟨p, q, rfl⟩ : ∃ (p : Fin 5000) (q : Fin 128), y = ix2 p q := ⟨y 0, y 1, eq_ix2 y⟩
  have hp : p.val < 5000 := p.isLt
  let r : Fin 100000 := ⟨t.val * 5000 + p.val, by omega⟩
  have hr : r.val = t.val * 5000 + p.val := rfl
  show k0_pay1 (iblk m c 0 t) (iblk m c 3 t) (iblk m c 1 t) (iblk m c 2 t) (ix2 p q)
    = Cert.Spec.G sd (m ((c : Thread nD τ).loc main_arg0)) (m ((c : Thread nD τ).loc main_arg1))
        (m ((c : Thread nD τ).loc main_arg2)) (m ((c : Thread nD τ).loc main_arg3)) (((cfg0.win 4).blk t).view.emb (ix2 p q))
  have hemb : ((cfg0.win 4).blk t).view.emb (ix2 p q) = (ix2 r q : S100000x128.Idx) := by
    funext a; apply Fin.ext
    match a with
    | ⟨0, _⟩ => show win0_4.index t (0 : Fin 2) * 5000 + 1 * p.val = r.val; omega
    | ⟨1, _⟩ => show win0_4.index t (1 : Fin 2) * 128 + 1 * q.val = q.val; omega
  rw [hemb]
  refine (payload_apply _ _ _ _ p q).trans ?_
  exact Cert.Spec.G_of_row sd _ _ _ _ r q
    (fun j => (iblk m c 0 t : S5000x128.Idx → EReal) (ix2 p j))
    ((iblk m c 3 t : S5000x1.Idx → EReal) (ix2 p (0 : Fin 1)))
    (fun j k => (iblk m c 1 t : S128x128.Idx → EReal) (ix2 j k))
    (fun k => (iblk m c 2 t : S1x128.Idx → EReal) (ix2 (0 : Fin 1) k))
    (fun j => by rw [features_block m c t p j r hr, HostValue.features_eq sd m c])
    (by rw [factor_block m c t p r hr, HostValue.factor_eq sd m c, shapeCast_a_a1_apply _ _ r 0])
    (fun j k => by rw [weights_block m c t j k, HostValue.weights_eq sd m c])
    (fun k => by rw [bias_block m c t k, HostValue.bias_eq m c, shapeCast_a_1a_apply _ _ 0 k])

/-! ## From the blocks to the array -/

/-- An index of the result is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v48).slice (win0_4.rect t)).set ↔ _
  rw [View.set_slice_whole, Rect.mem_set_unit]
  exact Iff.rfl

/-- Every index of the result is in some point's block: row `r` in the block of point `r / 5000`. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- THE RESULT ARRAY after the run is `G` of the arguments. -/
theorem final : (dats m 0 c).arrAt 4 cfg0.N
    = Cert.Spec.G sd (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq sd m c t) cover

/-- The kernel's run: it ends with the result array at `G` of the arguments, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v48)
        = Cert.Spec.G sd (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final sd m c), (h c).2⟩)
    (Cert.KernelIdeal.Value.run_blocks m ρ)

end Cert.KernelIdeal.TileValue

end
-- ==== Proof.LibTypedRefs.lean ====
/-
  A typed reference's two transports cancel.

  A tensor value of a module-local function is held in a buffer whose type equals the value's; contents move between the
  two types by transport along that equation, there and back.  Back after there is the identity.
-/
import Idealize.ShloMosaic.Lib.StableHlo

namespace Cert.Lib

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, h2, h3⟩ := x
  subst h
  rfl

end Cert.Lib
-- ==== Proof.RefValue.lean ====
/-
  The reference's result array, as one function of @main's arguments.

  The reference is a host program of 91 operations: the index words, the degrees and `dinv`, two propagation steps per
  edge (`Spec.rGraph`), the product with `Wᵀ` plus the bias (its 76th operation writes this pre-activation), and the
  row-wise log-softmax, which jax outlines as a function of 15 operations. Its run leaves every buffer at the fold of
  the operation list over the launch contents. The fold is read in two stretches, cut at the pre-activation: what the
  first 76 operations leave there is the host's product-plus-bias of `rGraph` (the operations the specification spells);
  the last 15 are a log-softmax of WHATEVER array they find there, read at an entry by `Lib.host_lsm_apply`. Reading the
  two stretches apart keeps the pre-activation, which the log-softmax uses four times, a single variable.
-/
import proofs.«173505_j47330539602646_2_alg».proof.Proof.RefRun
import proofs.«173505_j47330539602646_2_alg».proof.Proof.Spec
import proofs.«173505_j47330539602646_2_alg».proof.Proof.LibTypedRefs

set_option maxRecDepth 16384

noncomputable section

open scoped BigOperators

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo
open Idealize.ShloMosaic.ValueIdx Cert.Lib

/-- The specification's side conditions are among the reference's own. -/
theorem side : Cert.Spec.Side where
  sl0 := slices_S2x800000_S1x800000_0_0
  sl1 := slices_S2x800000_S1x800000_1_0
  cst := shapeCasts_S1x800000_S800000
  cat := concatenates_S800000_S100000_S900000_d0
  bE := bcast_S_S900000
  bN := bcast_S_S100000
  bNC := bcast_S_S100000x128
  cE := bcast_S900000_S900000x1_0
  cN := bcast_S100000_S100000x1_0
  rN := bcast_S100000x1_S100000x128_0_1
  rE := bcast_S900000x1_S900000x128_0_1
  tr := transposes_S128x128_S128x128_1_0
  wfK := scatter_S100000_S900000x1_S900000_n_0_0_1_wf
  wfS := scatter_S100000x128_S900000x1_S900000x128_1_0_0_1_wf
  wfR := gather_S100000x128_S900000x1_S900000x128_1_0_n_n_0_1_1128_wf
  wfE := gather_S100000_S900000x1_S900000_n_0_n_n_0_1_1_wf

/-! ## The typed references of the outlined functions

  jax outlines `jnp.where` and `log_softmax` as functions; each value of such a function is held in a buffer whose type
  equals the value's, and contents move between the two types by transport along that equation. At a literal buffer the
  equation is reflexive and the transport is the identity: the four buffers of `where`, the log-softmax's operand and its
  result. (Inside the log-softmax every other transport meets its inverse: `Lib.ofBuf_toBuf`.) -/

theorem toBuf_v15 (v : (⟨S100000, .f32⟩ : BufTy).Contents (Elt Ideal)) :
    (TRef.of (T := ⟨S100000, .f32⟩) main_v15).toBuf v = v := rfl
theorem ofBuf_v12 (v : (⟨S100000, .i1⟩ : BufTy).Contents (Elt Ideal)) :
    (TRef.of (T := ⟨S100000, .i1⟩) main_v12).ofBuf v = v := rfl
theorem ofBuf_v13 (v : (⟨S100000, .f32⟩ : BufTy).Contents (Elt Ideal)) :
    (TRef.of (T := ⟨S100000, .f32⟩) main_v13).ofBuf v = v := rfl
theorem ofBuf_v14 (v : (⟨S100000, .f32⟩ : BufTy).Contents (Elt Ideal)) :
    (TRef.of (T := ⟨S100000, .f32⟩) main_v14).ofBuf v = v := rfl
theorem ofBuf_v61 (v : (⟨S100000x128, .f32⟩ : BufTy).Contents (Elt Ideal)) :
    (TRef.of (T := ⟨S100000x128, .f32⟩) main_v61).ofBuf v = v := rfl
theorem toBuf_v62 (v : (⟨S100000x128, .f32⟩ : BufTy).Contents (Elt Ideal)) :
    (TRef.of (T := ⟨S100000x128, .f32⟩) main_v62).toBuf v = v := rfl

variable (m : (ℓ : Loc nD τ sig) → Buf (Elt Ideal) ℓ) (c : Dev nD)

/-- What the run leaves in the result buffer is the specification's `G` of the arguments. -/
theorem result_eq :
    after (ops (F := Ideal)) (launchContents m c) (Proc.devRef .tc main_v62)
      = Cert.Spec.G side (m ((c.tc : Thread nD τ).loc main_arg0)) (m ((c.tc : Thread nD τ).loc main_arg1))
          (m ((c.tc : Thread nD τ).loc main_arg2)) (m ((c.tc : Thread nD τ).loc main_arg3)) := by
  simp only [after_cons, after_nil]
  -- the contents after the first 76 operations, as one variable
  generalize hW : HloOp.result (binary main_v58 main_v60 main_v61 _ _ _ _) _ = W
  -- there the pre-activation buffer holds the host's product-plus-bias of the two per-edge steps
  have hz : W (Proc.devRef .tc main_v61)
      = hostPre dot_S100000x128_S128x128_S100000x128_1_0_0_1_n_n
          (Cert.Spec.rGraph side (Cert.Spec.rowW side (m ((c.tc : Thread nD τ).loc main_arg3)))
            (Cert.Spec.colW side (m ((c.tc : Thread nD τ).loc main_arg3))) (m ((c.tc : Thread nD τ).loc main_arg0)))
          (transpose S128x128 [1, 0] (m ((c.tc : Thread nD τ).loc main_arg1)) side.tr)
          (m ((c.tc : Thread nD τ).loc main_arg2)) bcast_S128_S1x128_1 bcast_S1x128_S100000x128_0_1 := by
    rw [← hW]
    after_results_simp
    rw [toBuf_v15, ofBuf_v12, ofBuf_v13, ofBuf_v14]
    rfl
  -- the last 15 operations: a log-softmax of whatever is there
  after_results_simp
  simp only [ofBuf_toBuf]
  rw [toBuf_v62, ofBuf_v61, hz]
  funext i
  obtain ⟨p, q, rfl⟩ : ∃ (p : Fin 100000) (q : Fin 128), i = ix2 p q := ⟨i 0, i 1, eq_ix2 i⟩
  rw [Cert.Spec.G_ix2]
  refine (host_lsm_apply _ reducesTo_S100000x128_S100000_d1 h_S_ bcast_S_S100000 bcast_S100000_S100000x1_0
    bcast_S100000x1_S100000x128_0_1 p q).trans ?_
  refine congrArg (fun z => lsmRow z q) (funext fun k => ?_)
  exact hostPre_apply dot_S100000x128_S128x128_S100000x128_1_0_0_1_n_n
    dot_S100000x128_S128x128_S100000x128_1_0_0_1_n_n_wf rfl _ _ _ _ _ p k

end Cert.ReferenceIdeal.RefValue

end
-- ==== Proof.lean ====
/-
  A two-hop graph propagation with symmetric degree normalisation, a dense layer and a row-wise log-softmax: a kernel
  against its reference, equal on the extended reals.

  Both programs take node features `x : [100000, 128]`, weights `W : [128, 128]`, a bias `b : [128]` and `[2, 800000]` edge
  words, add one self loop per node, count the updates landing on each node (`deg`), set `dinv = where(deg > 0, rsqrt deg, 0)`
  and propagate twice: `h ← Σ_{e lands on p} dinv[src e] · dinv[p] · h[src e]`. The reference weighs every edge's gathered
  row by `dinv[src e] · dinv[tgt e]` before the accumulating scatter. The kernel's host code scales the rows by `dinv` before
  the gather and multiplies the scattered sum by `dinv[p]` afterwards; for the second step that last factor is applied
  inside the Pallas kernel, which then computes `h · Wᵀ + b` on tiles of 5000 rows (after a change of float format, the
  identity here) and the log-softmax of every row. The reference computes `h · Wᵀ + b` and the same log-softmax on the
  whole array.

  The two arrangements of a propagation step agree entry by entry because both scatters sum over the same landing
  updates, a landing update's target word names its row exactly (so the reference's gathered `dinv[tgt e]` is `dinv[p]`),
  `dinv` is a nonnegative REAL at every node, and a nonnegative real distributes over a finite sum of arbitrary extended
  reals (`Spec.graph_eq`, over `Lib.two_hops`). Nothing about the features has to be finite and nothing about the edge
  words has to be in range, so the precondition is never opened. A row of the dense layer and of the log-softmax depends
  only on that row of its input, so the tiling is immaterial (`TileValue.flushed_eq`, the cover, `TileValue.final`).

  The ideal pass rewrote no operation of the kernel: `preserves_Kernel_KernelIdeal` is `True`.
-/
import proofs.«173505_j47330539602646_2_alg».proof.Defs
import proofs.«173505_j47330539602646_2_alg».proof.Proof.Gen.Kernel
import proofs.«173505_j47330539602646_2_alg».proof.Proof.Gen.Kernel.Skeleton
import proofs.«173505_j47330539602646_2_alg».proof.Proof.Gen.Kernel.Launch
import proofs.«173505_j47330539602646_2_alg».proof.Proof.Gen.Kernel.Points
import proofs.«173505_j47330539602646_2_alg».proof.Proof.Gen.Kernel.Frame
import proofs.«173505_j47330539602646_2_alg».proof.Proof.Gen.KernelIdeal
import proofs.«173505_j47330539602646_2_alg».proof.Proof.Gen.KernelIdeal.Skeleton
import proofs.«173505_j47330539602646_2_alg».proof.Proof.Gen.KernelIdeal.Launch
import proofs.«173505_j47330539602646_2_alg».proof.Proof.Gen.KernelIdeal.Points
import proofs.«173505_j47330539602646_2_alg».proof.Proof.Gen.KernelIdeal.Frame
import proofs.«173505_j47330539602646_2_alg».proof.Proof.Gen.ReferenceIdeal
import proofs.«173505_j47330539602646_2_alg».proof.Proof.Gen.Pre_finite_inputs
import proofs.«173505_j47330539602646_2_alg».proof.Proof.Gen.KernelIdeal.Value
import proofs.«173505_j47330539602646_2_alg».proof.Proof.RefRun
import proofs.«173505_j47330539602646_2_alg».proof.Proof.KernelValue
import proofs.«173505_j47330539602646_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame certificate. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its run, with what it says of the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass's ledger is empty. -/
theorem preserves : Cert.preserves_Kernel_KernelIdeal := trivial

/-- From memories agreeing on the arguments both programs end with the result array at `Spec.G` of the arguments: the
    kernel's result block by block (`TileValue.run`), the reference's from its operation list (`RefValue.result_eq`). -/
theorem algebraic : Cert.algebraic_KernelIdeal_ReferenceIdeal := by
  intro m ρ m' ρ' _ hagree
  refine ⟨_, Cert.KernelIdeal.TileValue.run Cert.ReferenceIdeal.RefValue.side m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq m' c, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
